-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S800000 : Shape := ⟨1, ![800000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg10 : FVec F S64 .f32) (main_arg11 : FVec F S64x10 .f32) (main_arg12 : FVec F S10 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x10 .f32 := Host.absf main_arg11
  let main_cst_14 : FVec F S_ .f32 := constant S_ .f32 0x7F800000#32
  let main_v40 : FVec F S64x10 .f32 := broadcastInDim S64x10 ![] bcast_S_S64x10 main_cst_14
  let main_v41 : IVec S64x10 1 := cmpf .olt main_v39 main_v40
  let main_c_15 : IVec S_ 1 := constantI S_ 1 1#1
  let main_v42 : IVec S_ 1 := (fun x v => Host.reduce IntOp.andi x v reducesTo_S64x10_S_d0_1 h_S_) main_v41 main_c_15
  let main_v43 : IVec S_ 1 := andi main_v38 main_v42
  let main_v44 : FVec F S10 .f32 := Host.absf main_arg12
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg7 : FVec F S64x64 .f32) (main_arg8 : FVec F S64 .f32) (main_arg9 : FVec F S64x64 .f32) (main_arg10 : FVec F S64 .f32) (main_arg11 : FVec F S64x10 .f32) (main_arg12 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg10 main_arg11 main_arg12 main_v33

def fn {F : FTy → Type} [FloatOps F] (main_arg0 : FVec F S50000x64 .f32) (main_arg1 : IVec S2x800000 32) (main_arg2 : IVec S50000 1) (main_arg3 : FVec F S800000 .f32) (main_arg4 : IVec S50000 32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x10 .f32) (main_arg12 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg5
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S800000 : Shape := ⟨1, ![800000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S2000x64 : Shape := ⟨2, ![2000, 64]⟩
abbrev S1x64 : Shape := ⟨2, ![1, 64]⟩
abbrev S2000x1 : Shape := ⟨2, ![2000, 1]⟩
abbrev S64x1 : Shape := ⟨2, ![64, 1]⟩
abbrev S1x10 : Shape := ⟨2, ![1, 10]⟩

abbrev nBuf : Space → Nat
  | .hbm => 140
  | .vmem => 46
  | .smem => 0
  | _ => 0

abbrev hbmTy0_0 (i : Nat) : BufTy := match i % 128 with
  | 0 => ⟨S50000x64, .f32⟩
  | 1 => ⟨S2x800000, .i32⟩
  | 2 => ⟨S50000, .i1⟩
  | 3 => ⟨S800000, .f32⟩
  | 4 => ⟨S50000, .i32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x10, .f32⟩
  | 12 => ⟨S10, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x64, .f32⟩
  | 26 => ⟨S800000x1, .f32⟩
  | 27 => ⟨S800000x64, .f32⟩
  | 28 => ⟨S800000x64, .f32⟩
  | 29 => ⟨S_, .f32⟩
  | 30 => ⟨S50000x64, .f32⟩
  | 31 => ⟨S800000x1, .i32⟩
  | 32 => ⟨S50000x64, .f32⟩
  | 33 => ⟨S50000x1, .i1⟩
  | 34 => ⟨S50000x64, .i1⟩
  | 35 => ⟨S50000x64, .f32⟩
  | 36 => ⟨S_, .f32⟩
  | 37 => ⟨S800000, .f32⟩
  | 38 => ⟨S_, .f32⟩
  | 39 => ⟨S50000, .f32⟩
  | 40 => ⟨S800000x1, .i32⟩
  | 41 => ⟨S50000, .f32⟩
  | 42 => ⟨S_, .f32⟩
  | 43 => ⟨S50000, .f32⟩
  | 44 => ⟨S50000, .f32⟩
  | 45 => ⟨S50000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000, .f32⟩
  | 64 => ⟨S800000, .f32⟩
  | 65 => ⟨S50000, .f32⟩
  | 66 => ⟨S50000x1, .f32⟩
  | 67 => ⟨S800000x1, .f32⟩
  | 68 => ⟨S50000x64, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x64, .f32⟩
  | 78 => ⟨S800000x64, .f32⟩
  | 79 => ⟨S800000x64, .f32⟩
  | 80 => ⟨S_, .f32⟩
  | 81 => ⟨S50000x64, .f32⟩
  | 82 => ⟨S800000x1, .i32⟩
  | 83 => ⟨S50000x64, .f32⟩
  | 84 => ⟨S1x64, .f32⟩
  | 85 => ⟨S50000x64, .f32⟩
  | 86 => ⟨S50000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S800000x64, .f32⟩
  | 97 => ⟨S800000x64, .f32⟩
  | 98 => ⟨S_, .f32⟩
  | 99 => ⟨S50000x64, .f32⟩
  | 100 => ⟨S800000x1, .i32⟩
  | 101 => ⟨S50000x64, .f32⟩
  | 102 => ⟨S1x64, .f32⟩
  | 103 => ⟨S50000x64, .f32⟩
  | 104 => ⟨S50000x64, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x64, .f32⟩
  | 114 => ⟨S800000x64, .f32⟩
  | 115 => ⟨S800000x64, .f32⟩
  | 116 => ⟨S_, .f32⟩
  | 117 => ⟨S50000x64, .f32⟩
  | 118 => ⟨S800000x1, .i32⟩
  | 119 => ⟨S50000x64, .f32⟩
  | 120 => ⟨S1x64, .f32⟩
  | 121 => ⟨S50000x64, .f32⟩
  | 122 => ⟨S_, .f32⟩
  | 123 => ⟨S64x64, .f32⟩
  | 124 => ⟨S50000x1, .i32⟩
  | 125 => ⟨S64x64, .f32⟩
  | 126 => ⟨S_, .f32⟩
  | 127 => ⟨S50000, .f32⟩
  | _ => ⟨S50000x64, .f32⟩

abbrev hbmTy0_1 (i : Nat) : BufTy := match i % 128 with
  | 0 => ⟨S_, .f32⟩
  | 1 => ⟨S64, .f32⟩
  | 2 => ⟨S50000x1, .i32⟩
  | 3 => ⟨S64, .f32⟩
  | 4 => ⟨S_, .f32⟩
  | 5 => ⟨S64, .f32⟩
  | 6 => ⟨S64, .f32⟩
  | 7 => ⟨S64x1, .f32⟩
  | 8 => ⟨S64x64, .f32⟩
  | 9 => ⟨S64x64, .f32⟩
  | 10 => ⟨S1x10, .f32⟩
  | 11 => ⟨S64x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S64x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S64x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x1, .f32⟩
  | .local _ .vmem, ⟨38, _⟩ => ⟨S2000x1, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | .local _ .vmem, ⟨42, _⟩ => ⟨S64x64, .f32⟩
  | .local _ .vmem, ⟨43, _⟩ => ⟨S64x10, .f32⟩
  | .local _ .vmem, ⟨44, _⟩ => ⟨S1x10, .f32⟩
  | .local _ .vmem, ⟨45, _⟩ => ⟨S64x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_v0 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_c_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_11 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_14 : Ref sig .tc := ⟨.hbm, 105, rfl⟩
abbrev main_v75 : Ref sig .tc := ⟨.hbm, 106, rfl⟩
abbrev main_v76 : Ref sig .tc := ⟨.hbm, 107, rfl⟩
abbrev main_c_15 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_16 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_17 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_18 : Ref sig .tc := ⟨.hbm, 126, rfl⟩
abbrev main_v92 : Ref sig .tc := ⟨.hbm, 127, rfl⟩
abbrev main_cst_19 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_20 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem1_0 : DmaSem sig := 43
abbrev cc6_sem2_0 : DmaSem sig := 44
abbrev cc6_sem3_0 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S64x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x10 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x10 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000 : S_.BroadcastsInDim S50000 (![] : Fin 0 → Fin S50000.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64_S1x64 : S64.ShapeCasts S1x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S10_S1x10 : S10.ShapeCasts S1x10
  shapeCasts_S64x64_S64x64 : S64x64.ShapeCasts S64x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x64_S64x64_S2000x64_1_0_0_1_n_n_wf : DotDims.WF S2000x64 S64x64 S2000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x10_S64x10_1_0_0_1_n_n_wf : DotDims.WF S64x64 S64x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .f32 = 32 ∨ (Rect.block (s := S50000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .f32 = 32 ∨ (Rect.block (s := S50000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S50000x64.size a
  hwx5_4 : ∀ i : grid5.Coords, EltTy.bits .f32 = 32 ∨ (Rect.block (s := S50000x64) S2000x64.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S64x64.size a ≤ S64x64.size a
  hwx6_0 : ∀ i : grid6.Coords, EltTy.bits .f32 = 32 ∨ (Rect.block (s := S64x64) S64x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x10.size a ≤ S64x10.size a
  hwx6_1 : ∀ i : grid6.Coords, EltTy.bits .f32 = 32 ∨ (Rect.block (s := S64x10) S64x10.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x10.size a ≤ S1x10.size a
  hwx6_2 : ∀ i : grid6.Coords, EltTy.bits .f32 = 32 ∨ (Rect.block (s := S1x10) S1x10.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x10.size a ≤ S64x10.size a
  hwx6_3 : ∀ i : grid6.Coords, EltTy.bits .f32 = 32 ∨ (Rect.block (s := S64x10) S64x10.size (cc6_transform_3 i) (hinb6_3 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

abbrev win0_0 : Pipeline.Window sig grid0 :=
  Pipeline.Window.ofSpec (Memref.whole main_v18) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v57) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v58) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v72) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v73) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v86) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v42) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v87) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v100) S64x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S64x10.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v101) S1x10.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v102) S64x10.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S800000 : Shape := ⟨1, ![800000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S64x1 : Shape := ⟨2, ![64, 1]⟩
abbrev S1x10 : Shape := ⟨2, ![1, 10]⟩

abbrev nBuf : Space → Nat
  | .hbm => 162
  | .vmem => 0
  | .smem => 0
  | _ => 0

abbrev hbmTy0_0 (i : Nat) : BufTy := match i % 128 with
  | 0 => ⟨S50000x64, .f32⟩
  | 1 => ⟨S2x800000, .i32⟩
  | 2 => ⟨S50000, .i1⟩
  | 3 => ⟨S800000, .f32⟩
  | 4 => ⟨S50000, .i32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x10, .f32⟩
  | 12 => ⟨S10, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x64, .f32⟩
  | 26 => ⟨S800000x1, .f32⟩
  | 27 => ⟨S800000x64, .f32⟩
  | 28 => ⟨S800000x64, .f32⟩
  | 29 => ⟨S_, .f32⟩
  | 30 => ⟨S50000x64, .f32⟩
  | 31 => ⟨S800000x1, .i32⟩
  | 32 => ⟨S50000x64, .f32⟩
  | 33 => ⟨S50000x1, .i1⟩
  | 34 => ⟨S50000x64, .i1⟩
  | 35 => ⟨S50000x64, .f32⟩
  | 36 => ⟨S_, .f32⟩
  | 37 => ⟨S800000, .f32⟩
  | 38 => ⟨S_, .f32⟩
  | 39 => ⟨S50000, .f32⟩
  | 40 => ⟨S800000x1, .i32⟩
  | 41 => ⟨S50000, .f32⟩
  | 42 => ⟨S_, .f32⟩
  | 43 => ⟨S50000, .f32⟩
  | 44 => ⟨S50000, .f32⟩
  | 45 => ⟨S50000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000, .f32⟩
  | 64 => ⟨S800000, .f32⟩
  | 65 => ⟨S50000, .f32⟩
  | 66 => ⟨S50000x1, .f32⟩
  | 67 => ⟨S50000x64, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x64, .f32⟩
  | 77 => ⟨S800000x1, .f32⟩
  | 78 => ⟨S800000x64, .f32⟩
  | 79 => ⟨S800000x64, .f32⟩
  | 80 => ⟨S_, .f32⟩
  | 81 => ⟨S50000x64, .f32⟩
  | 82 => ⟨S800000x1, .i32⟩
  | 83 => ⟨S50000x64, .f32⟩
  | 84 => ⟨S50000x64, .f32⟩
  | 85 => ⟨S50000x64, .f32⟩
  | 86 => ⟨S50000x64, .f32⟩
  | 87 => ⟨S1x64, .f32⟩
  | 88 => ⟨S50000x64, .f32⟩
  | 89 => ⟨S50000x64, .f32⟩
  | 90 => ⟨S_, .f32⟩
  | 91 => ⟨S50000x64, .f32⟩
  | 92 => ⟨S50000x64, .f32⟩
  | 93 => ⟨S50000x64, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x64, .f32⟩
  | 103 => ⟨S800000x1, .f32⟩
  | 104 => ⟨S800000x64, .f32⟩
  | 105 => ⟨S800000x64, .f32⟩
  | 106 => ⟨S_, .f32⟩
  | 107 => ⟨S50000x64, .f32⟩
  | 108 => ⟨S800000x1, .i32⟩
  | 109 => ⟨S50000x64, .f32⟩
  | 110 => ⟨S50000x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S_, .f32⟩
  | 117 => ⟨S50000x64, .f32⟩
  | 118 => ⟨S50000x64, .f32⟩
  | 119 => ⟨S50000x64, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x64, .f32⟩

abbrev hbmTy0_1 (i : Nat) : BufTy := match i % 128 with
  | 0 => ⟨S800000x64, .f32⟩
  | 1 => ⟨S800000x1, .f32⟩
  | 2 => ⟨S800000x64, .f32⟩
  | 3 => ⟨S800000x64, .f32⟩
  | 4 => ⟨S_, .f32⟩
  | 5 => ⟨S50000x64, .f32⟩
  | 6 => ⟨S800000x1, .i32⟩
  | 7 => ⟨S50000x64, .f32⟩
  | 8 => ⟨S50000x64, .f32⟩
  | 9 => ⟨S50000x64, .f32⟩
  | 10 => ⟨S50000x64, .f32⟩
  | 11 => ⟨S1x64, .f32⟩
  | 12 => ⟨S50000x64, .f32⟩
  | 13 => ⟨S50000x64, .f32⟩
  | 14 => ⟨S_, .f32⟩
  | 15 => ⟨S64x64, .f32⟩
  | 16 => ⟨S50000x1, .i32⟩
  | 17 => ⟨S64x64, .f32⟩
  | 18 => ⟨S_, .f32⟩
  | 19 => ⟨S50000, .f32⟩
  | 20 => ⟨S_, .f32⟩
  | 21 => ⟨S64, .f32⟩
  | 22 => ⟨S50000x1, .i32⟩
  | 23 => ⟨S64, .f32⟩
  | 24 => ⟨S_, .f32⟩
  | 25 => ⟨S64, .f32⟩
  | 26 => ⟨S64, .f32⟩
  | 27 => ⟨S64x1, .f32⟩
  | 28 => ⟨S64x64, .f32⟩
  | 29 => ⟨S64x64, .f32⟩
  | 30 => ⟨S64x10, .f32⟩
  | 31 => ⟨S1x10, .f32⟩
  | 32 => ⟨S64x10, .f32⟩
  | 33 => ⟨S64x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_v0 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_8 : Ref sig .tc := ⟨.hbm, 68, rfl⟩
abbrev main_v44 : Ref sig .tc := ⟨.hbm, 69, rfl⟩
abbrev main_v45 : Ref sig .tc := ⟨.hbm, 70, rfl⟩
abbrev main_c_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call1_cst : Ref sig .tc := ⟨.hbm, 90, rfl⟩
abbrev main_call1_v0 : Ref sig .tc := ⟨.hbm, 91, rfl⟩
abbrev main_v63 : Ref sig .tc := ⟨.hbm, 92, rfl⟩
abbrev main_v64 : Ref sig .tc := ⟨.hbm, 93, rfl⟩
abbrev main_c_11 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_13 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_call2_cst : Ref sig .tc := ⟨.hbm, 116, rfl⟩
abbrev main_call2_v0 : Ref sig .tc := ⟨.hbm, 117, rfl⟩
abbrev main_v84 : Ref sig .tc := ⟨.hbm, 118, rfl⟩
abbrev main_v85 : Ref sig .tc := ⟨.hbm, 119, rfl⟩
abbrev main_c_14 : Ref sig .tc := ⟨.hbm, 120, rfl⟩
abbrev main_v86 : Ref sig .tc := ⟨.hbm, 121, rfl⟩
abbrev main_v87 : Ref sig .tc := ⟨.hbm, 122, rfl⟩
abbrev main_c_15 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_16 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_17 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_18 : Ref sig .tc := ⟨.hbm, 146, rfl⟩
abbrev main_v108 : Ref sig .tc := ⟨.hbm, 147, rfl⟩
abbrev main_cst_19 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_20 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000 : S_.BroadcastsInDim S50000 (![] : Fin 0 → Fin S50000.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x10_S64x10_1_0_0_1_n_n_wf : DotDims.WF S64x64 S64x10 S64x10 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

class Facts : Prop extends Facts₀ where

variable [Facts]
-- ==== Proof.KernelRun.lean ====
/-
  The idealized kernel's run with its RESULT array named. The generated frame states that every weakly fair execution of
  @main terminates with the thirteen argument arrays unchanged; the same run, read once more at the result buffer,
  says what that buffer holds at the end: the contents `Gen.W14` of the last segment boundary — the fold of the seven
  host stretches and the seven regions' write-backs from the launch memory. The value modules open that fold.
-/
import proofs.«130858_j4011499454822_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v102) = W14 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v102 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KernelIdeal.ResultRun

end
-- ==== Proof.HostStretch.lean ====
/-
  The host stretches of the idealized kernel's @main, one at a time, over an ARBITRARY valuation `V` of the buffers at
  the stretch's entry: what each buffer a later region or stretch reads holds after the stretch, as the reference's
  stage of the same name applied to what the stretch read, and which buffers the stretch leaves alone. The kernel's
  glue between its seven regions is, operation for operation, the reference's own jnp code (edge gathers, segment
  sums, the degree normalisation, the mean pool), so every stage here is the reference's stage by unfolding.
-/
import proofs.«130858_j4011499454822_2_alg».proof.Proof.Gen.KernelIdeal.Frame
import proofs.«130858_j4011499454822_2_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo
open Cert.ReferenceIdeal.Read

/-! ## A bias vector as a row: the kernel reshapes [n] to [1,n], the reference broadcasts it there -/

/-- Reshaping a vector of 64 to one row of 64 reads entry `(0, q)` at `q`, as the reference's broadcast along axis 1 does. -/
theorem row64 (x : (⟨Cert.ReferenceIdeal.S64, .f32⟩ : BufTy).Contents (Elt Ideal)) :
    (fun i => shapeCast S1x64 x shapeCasts_S64_S1x64 i) = val_main_v60 (F := Ideal) x := by
  funext i
  rw [val_main_v60_apply]
  have hi0 : (i 0).val < 1 := (i 0).isLt
  refine shapeCast_apply x shapeCasts_S64_S1x64 i (idx_main_v60 i) ?_
  rw [Shape.rowMajor_val_one, Shape.rowMajor_val_two]
  show (i 1).val = (i 0).val * 64 + (i 1).val
  omega

/-- The same for the output layer's bias of 10. -/
theorem row10 (x : (⟨Cert.ReferenceIdeal.S10, .f32⟩ : BufTy).Contents (Elt Ideal)) :
    (fun i => shapeCast S1x10 x shapeCasts_S10_S1x10 i) = val_main_v118 (F := Ideal) x := by
  funext i
  rw [val_main_v118_apply]
  have hi0 : (i 0).val < 1 := (i 0).isLt
  refine shapeCast_apply x shapeCasts_S10_S1x10 i (idx_main_v118 i) ?_
  rw [Shape.rowMajor_val_one, Shape.rowMajor_val_two]
  show (i 1).val = (i 0).val * 10 + (i 1).val
  omega

/-! ## The first stretch: the edge list split, the masked neighbour sum, the mask column -/

theorem s0_v1 (V : Valuation τ sig (Elt Ideal)) : StableHlo.after hostOps0 V (Proc.devRef .tc main_v1) = val_main_v1 (F := Ideal) (V (Proc.devRef .tc main_arg1)) := by
  after_results_simp; rfl
theorem s0_v3 (V : Valuation τ sig (Elt Ideal)) : StableHlo.after hostOps0 V (Proc.devRef .tc main_v3) = val_main_v3 (F := Ideal) (V (Proc.devRef .tc main_arg1)) := by
  after_results_simp; rfl
theorem s0_v16 (V : Valuation τ sig (Elt Ideal)) : StableHlo.after hostOps0 V (Proc.devRef .tc main_v16)
    = val_main_v16 (F := Ideal) (V (Proc.devRef .tc main_arg0)) (V (Proc.devRef .tc main_arg1)) (V (Proc.devRef .tc main_arg3)) := by
  after_results_simp; rfl
theorem s0_v17 (V : Valuation τ sig (Elt Ideal)) : StableHlo.after hostOps0 V (Proc.devRef .tc main_v17) = val_main_v17 (F := Ideal) (V (Proc.devRef .tc main_arg2)) := by
  after_results_simp; rfl
theorem keep0_arg0 (V : Valuation τ sig (Elt Ideal)) : StableHlo.after hostOps0 V (Proc.devRef .tc main_arg0) = V (Proc.devRef .tc main_arg0) := by after_results_simp
theorem keep0_arg4 (V : Valuation τ sig (Elt Ideal)) : StableHlo.after hostOps0 V (Proc.devRef .tc main_arg4) = V (Proc.devRef .tc main_arg4) := by after_results_simp
theorem keep0_arg5 (V : Valuation τ sig (Elt Ideal)) : StableHlo.after hostOps0 V (Proc.devRef .tc main_arg5) = V (Proc.devRef .tc main_arg5) := by after_results_simp
theorem keep0_arg6 (V : Valuation τ sig (Elt Ideal)) : StableHlo.after hostOps0 V (Proc.devRef .tc main_arg6) = V (Proc.devRef .tc main_arg6) := by after_results_simp
theorem keep0_arg7 (V : Valuation τ sig (Elt Ideal)) : StableHlo.after hostOps0 V (Proc.devRef .tc main_arg7) = V (Proc.devRef .tc main_arg7) := by after_results_simp
theorem keep0_arg8 (V : Valuation τ sig (Elt Ideal)) : StableHlo.after hostOps0 V (Proc.devRef .tc main_arg8) = V (Proc.devRef .tc main_arg8) := by after_results_simp
theorem keep0_arg9 (V : Valuation τ sig (Elt Ideal)) : StableHlo.after hostOps0 V (Proc.devRef .tc main_arg9) = V (Proc.devRef .tc main_arg9) := by after_results_simp
theorem keep0_arg10 (V : Valuation τ sig (Elt Ideal)) : StableHlo.after hostOps0 V (Proc.devRef .tc main_arg10) = V (Proc.devRef .tc main_arg10) := by after_results_simp
theorem keep0_arg11 (V : Valuation τ sig (Elt Ideal)) : StableHlo.after hostOps0 V (Proc.devRef .tc main_arg11) = V (Proc.devRef .tc main_arg11) := by after_results_simp
theorem keep0_arg12 (V : Valuation τ sig (Elt Ideal)) : StableHlo.after hostOps0 V (Proc.devRef .tc main_arg12) = V (Proc.devRef .tc main_arg12) := by after_results_simp

/-! ## The select between the neighbour sum and the input row (jnp.where) -/

theorem s01_v18 (V : Valuation τ sig (Elt Ideal)) : StableHlo.after hostOps0_1 V (Proc.devRef .tc main_v18)
    = select (broadcastInDim S50000x64 ![0, 1] bcast_S50000x1_S50000x64_0_1 (V (Proc.devRef .tc main_v17))) (V (Proc.devRef .tc main_v16)) (V (Proc.devRef .tc main_arg0)) := by
  after_results_simp; rfl
theorem keep01_v1 (V : Valuation τ sig (Elt Ideal)) : StableHlo.after hostOps0_1 V (Proc.devRef .tc main_v1) = V (Proc.devRef .tc main_v1) := by after_results_simp
theorem keep01_v3 (V : Valuation τ sig (Elt Ideal)) : StableHlo.after hostOps0_1 V (Proc.devRef .tc main_v3) = V (Proc.devRef .tc main_v3) := by after_results_simp
theorem keep01_arg4 (V : Valuation τ sig (Elt Ideal)) : StableHlo.after hostOps0_1 V (Proc.devRef .tc main_arg4) = V (Proc.devRef .tc main_arg4) := by after_results_simp
theorem keep01_arg5 (V : Valuation τ sig (Elt Ideal)) : StableHlo.after hostOps0_1 V (Proc.devRef .tc main_arg5) = V (Proc.devRef .tc main_arg5) := by after_results_simp
theorem keep01_arg6 (V : Valuation τ sig (Elt Ideal)) : StableHlo.after hostOps0_1 V (Proc.devRef .tc main_arg6) = V (Proc.devRef .tc main_arg6) := by after_results_simp
theorem keep01_arg7 (V : Valuation τ sig (Elt Ideal)) : StableHlo.after hostOps0_1 V (Proc.devRef .tc main_arg7) = V (Proc.devRef .tc main_arg7) := by after_results_simp
theorem keep01_arg8 (V : Valuation τ sig (Elt Ideal)) : StableHlo.after hostOps0_1 V (Proc.devRef .tc main_arg8) = V (Proc.devRef .tc main_arg8) := by after_results_simp
theorem keep01_arg9 (V : Valuation τ sig (Elt Ideal)) : StableHlo.after hostOps0_1 V (Proc.devRef .tc main_arg9) = V (Proc.devRef .tc main_arg9) := by after_results_simp
theorem keep01_arg10 (V : Valuation τ sig (Elt Ideal)) : StableHlo.after hostOps0_1 V (Proc.devRef .tc main_arg10) = V (Proc.devRef .tc main_arg10) := by after_results_simp
theorem keep01_arg11 (V : Valuation τ sig (Elt Ideal)) : StableHlo.after hostOps0_1 V (Proc.devRef .tc main_arg11) = V (Proc.devRef .tc main_arg11) := by after_results_simp
theorem keep01_arg12 (V : Valuation τ sig (Elt Ideal)) : StableHlo.after hostOps0_1 V (Proc.devRef .tc main_arg12) = V (Proc.devRef .tc main_arg12) := by after_results_simp

/-! ## The degree normalisation: d^(-1/2) at both ends of each edge, and its square per node -/

theorem s02_v42 (V : Valuation τ sig (Elt Ideal)) (x1 : (⟨Cert.ReferenceIdeal.S2x800000, .i32⟩ : BufTy).Contents (Elt Ideal))
    (h3 : V (Proc.devRef .tc main_v3) = val_main_v3 (F := Ideal) x1) :
    StableHlo.after hostOps0_2 V (Proc.devRef .tc main_v42) = val_main_v42 (F := Ideal) x1 := by
  after_results_simp; rw [h3]; rfl
theorem s02_v43 (V : Valuation τ sig (Elt Ideal)) (x1 : (⟨Cert.ReferenceIdeal.S2x800000, .i32⟩ : BufTy).Contents (Elt Ideal))
    (h1 : V (Proc.devRef .tc main_v1) = val_main_v1 (F := Ideal) x1) (h3 : V (Proc.devRef .tc main_v3) = val_main_v3 (F := Ideal) x1) :
    StableHlo.after hostOps0_2 V (Proc.devRef .tc main_v43) = val_main_v51 (F := Ideal) x1 := by
  after_results_simp; rw [h1, h3]; rfl
theorem keep02_v18 (V : Valuation τ sig (Elt Ideal)) : StableHlo.after hostOps0_2 V (Proc.devRef .tc main_v18) = V (Proc.devRef .tc main_v18) := by after_results_simp
theorem keep02_v1 (V : Valuation τ sig (Elt Ideal)) : StableHlo.after hostOps0_2 V (Proc.devRef .tc main_v1) = V (Proc.devRef .tc main_v1) := by after_results_simp
theorem keep02_v3 (V : Valuation τ sig (Elt Ideal)) : StableHlo.after hostOps0_2 V (Proc.devRef .tc main_v3) = V (Proc.devRef .tc main_v3) := by after_results_simp
theorem keep02_arg4 (V : Valuation τ sig (Elt Ideal)) : StableHlo.after hostOps0_2 V (Proc.devRef .tc main_arg4) = V (Proc.devRef .tc main_arg4) := by after_results_simp
theorem keep02_arg5 (V : Valuation τ sig (Elt Ideal)) : StableHlo.after hostOps0_2 V (Proc.devRef .tc main_arg5) = V (Proc.devRef .tc main_arg5) := by after_results_simp
theorem keep02_arg6 (V : Valuation τ sig (Elt Ideal)) : StableHlo.after hostOps0_2 V (Proc.devRef .tc main_arg6) = V (Proc.devRef .tc main_arg6) := by after_results_simp
theorem keep02_arg7 (V : Valuation τ sig (Elt Ideal)) : StableHlo.after hostOps0_2 V (Proc.devRef .tc main_arg7) = V (Proc.devRef .tc main_arg7) := by after_results_simp
theorem keep02_arg8 (V : Valuation τ sig (Elt Ideal)) : StableHlo.after hostOps0_2 V (Proc.devRef .tc main_arg8) = V (Proc.devRef .tc main_arg8) := by after_results_simp
theorem keep02_arg9 (V : Valuation τ sig (Elt Ideal)) : StableHlo.after hostOps0_2 V (Proc.devRef .tc main_arg9) = V (Proc.devRef .tc main_arg9) := by after_results_simp
theorem keep02_arg10 (V : Valuation τ sig (Elt Ideal)) : StableHlo.after hostOps0_2 V (Proc.devRef .tc main_arg10) = V (Proc.devRef .tc main_arg10) := by after_results_simp
theorem keep02_arg11 (V : Valuation τ sig (Elt Ideal)) : StableHlo.after hostOps0_2 V (Proc.devRef .tc main_arg11) = V (Proc.devRef .tc main_arg11) := by after_results_simp
theorem keep02_arg12 (V : Valuation τ sig (Elt Ideal)) : StableHlo.after hostOps0_2 V (Proc.devRef .tc main_arg12) = V (Proc.devRef .tc main_arg12) := by after_results_simp

/-! ## The three neighbour aggregations (gather the projected rows at the sources, scale by the edge coefficient,
    segment-sum into the targets) and the bias rows -/

theorem s1_v56 (V : Valuation τ sig (Elt Ideal)) (x0 : (⟨Cert.ReferenceIdeal.S50000x64, .f32⟩ : BufTy).Contents (Elt Ideal)) (x1 : (⟨Cert.ReferenceIdeal.S2x800000, .i32⟩ : BufTy).Contents (Elt Ideal)) (x2 : (⟨Cert.ReferenceIdeal.S50000, .i1⟩ : BufTy).Contents (Elt Ideal)) (x3 : (⟨Cert.ReferenceIdeal.S800000, .f32⟩ : BufTy).Contents (Elt Ideal)) (x5 : (⟨Cert.ReferenceIdeal.S64x64, .f32⟩ : BufTy).Contents (Elt Ideal))
    (hh : V (Proc.devRef .tc main_v44) = val_main_v43 (F := Ideal) x0 x1 x2 x3 x5)
    (h1 : V (Proc.devRef .tc main_v1) = val_main_v1 (F := Ideal) x1) (h3 : V (Proc.devRef .tc main_v3) = val_main_v3 (F := Ideal) x1)
    (hc : V (Proc.devRef .tc main_v43) = val_main_v51 (F := Ideal) x1) :
    StableHlo.after hostOps1 V (Proc.devRef .tc main_v56) = val_main_v56 (F := Ideal) x0 x1 x2 x3 x5 := by
  after_results_simp; rw [hh, h1, h3, hc]; rfl
theorem s1_v57 (V : Valuation τ sig (Elt Ideal)) : StableHlo.after hostOps1 V (Proc.devRef .tc main_v57) = val_main_v60 (F := Ideal) (V (Proc.devRef .tc main_arg6)) := by
  after_results_simp; exact row64 _
theorem keep1_v44 (V : Valuation τ sig (Elt Ideal)) : StableHlo.after hostOps1 V (Proc.devRef .tc main_v44) = V (Proc.devRef .tc main_v44) := by after_results_simp
theorem keep1_v42 (V : Valuation τ sig (Elt Ideal)) : StableHlo.after hostOps1 V (Proc.devRef .tc main_v42) = V (Proc.devRef .tc main_v42) := by after_results_simp
theorem keep1_v1 (V : Valuation τ sig (Elt Ideal)) : StableHlo.after hostOps1 V (Proc.devRef .tc main_v1) = V (Proc.devRef .tc main_v1) := by after_results_simp
theorem keep1_v3 (V : Valuation τ sig (Elt Ideal)) : StableHlo.after hostOps1 V (Proc.devRef .tc main_v3) = V (Proc.devRef .tc main_v3) := by after_results_simp
theorem keep1_v43 (V : Valuation τ sig (Elt Ideal)) : StableHlo.after hostOps1 V (Proc.devRef .tc main_v43) = V (Proc.devRef .tc main_v43) := by after_results_simp
theorem keep1_arg4 (V : Valuation τ sig (Elt Ideal)) : StableHlo.after hostOps1 V (Proc.devRef .tc main_arg4) = V (Proc.devRef .tc main_arg4) := by after_results_simp
theorem keep1_arg7 (V : Valuation τ sig (Elt Ideal)) : StableHlo.after hostOps1 V (Proc.devRef .tc main_arg7) = V (Proc.devRef .tc main_arg7) := by after_results_simp
theorem keep1_arg8 (V : Valuation τ sig (Elt Ideal)) : StableHlo.after hostOps1 V (Proc.devRef .tc main_arg8) = V (Proc.devRef .tc main_arg8) := by after_results_simp
theorem keep1_arg9 (V : Valuation τ sig (Elt Ideal)) : StableHlo.after hostOps1 V (Proc.devRef .tc main_arg9) = V (Proc.devRef .tc main_arg9) := by after_results_simp
theorem keep1_arg10 (V : Valuation τ sig (Elt Ideal)) : StableHlo.after hostOps1 V (Proc.devRef .tc main_arg10) = V (Proc.devRef .tc main_arg10) := by after_results_simp
theorem keep1_arg11 (V : Valuation τ sig (Elt Ideal)) : StableHlo.after hostOps1 V (Proc.devRef .tc main_arg11) = V (Proc.devRef .tc main_arg11) := by after_results_simp
theorem keep1_arg12 (V : Valuation τ sig (Elt Ideal)) : StableHlo.after hostOps1 V (Proc.devRef .tc main_arg12) = V (Proc.devRef .tc main_arg12) := by after_results_simp

theorem s3_v71 (V : Valuation τ sig (Elt Ideal)) (x0 : (⟨Cert.ReferenceIdeal.S50000x64, .f32⟩ : BufTy).Contents (Elt Ideal)) (x1 : (⟨Cert.ReferenceIdeal.S2x800000, .i32⟩ : BufTy).Contents (Elt Ideal)) (x2 : (⟨Cert.ReferenceIdeal.S50000, .i1⟩ : BufTy).Contents (Elt Ideal)) (x3 : (⟨Cert.ReferenceIdeal.S800000, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x64, .f32⟩ : BufTy).Contents (Elt Ideal))
    (hh : V (Proc.devRef .tc main_v59) = val_main_v64 (F := Ideal) x0 x1 x2 x3 x5 x6 x7)
    (h1 : V (Proc.devRef .tc main_v1) = val_main_v1 (F := Ideal) x1) (h3 : V (Proc.devRef .tc main_v3) = val_main_v3 (F := Ideal) x1)
    (hc : V (Proc.devRef .tc main_v43) = val_main_v51 (F := Ideal) x1) :
    StableHlo.after hostOps3 V (Proc.devRef .tc main_v71) = val_main_v77 (F := Ideal) x0 x1 x2 x3 x5 x6 x7 := by
  after_results_simp; rw [hh, h1, h3, hc]; rfl
theorem s3_v72 (V : Valuation τ sig (Elt Ideal)) : StableHlo.after hostOps3 V (Proc.devRef .tc main_v72) = val_main_v81 (F := Ideal) (V (Proc.devRef .tc main_arg8)) := by
  after_results_simp; exact row64 _
theorem keep3_v59 (V : Valuation τ sig (Elt Ideal)) : StableHlo.after hostOps3 V (Proc.devRef .tc main_v59) = V (Proc.devRef .tc main_v59) := by after_results_simp
theorem keep3_v42 (V : Valuation τ sig (Elt Ideal)) : StableHlo.after hostOps3 V (Proc.devRef .tc main_v42) = V (Proc.devRef .tc main_v42) := by after_results_simp
theorem keep3_v1 (V : Valuation τ sig (Elt Ideal)) : StableHlo.after hostOps3 V (Proc.devRef .tc main_v1) = V (Proc.devRef .tc main_v1) := by after_results_simp
theorem keep3_v3 (V : Valuation τ sig (Elt Ideal)) : StableHlo.after hostOps3 V (Proc.devRef .tc main_v3) = V (Proc.devRef .tc main_v3) := by after_results_simp
theorem keep3_v43 (V : Valuation τ sig (Elt Ideal)) : StableHlo.after hostOps3 V (Proc.devRef .tc main_v43) = V (Proc.devRef .tc main_v43) := by after_results_simp
theorem keep3_arg4 (V : Valuation τ sig (Elt Ideal)) : StableHlo.after hostOps3 V (Proc.devRef .tc main_arg4) = V (Proc.devRef .tc main_arg4) := by after_results_simp
theorem keep3_arg9 (V : Valuation τ sig (Elt Ideal)) : StableHlo.after hostOps3 V (Proc.devRef .tc main_arg9) = V (Proc.devRef .tc main_arg9) := by after_results_simp
theorem keep3_arg10 (V : Valuation τ sig (Elt Ideal)) : StableHlo.after hostOps3 V (Proc.devRef .tc main_arg10) = V (Proc.devRef .tc main_arg10) := by after_results_simp
theorem keep3_arg11 (V : Valuation τ sig (Elt Ideal)) : StableHlo.after hostOps3 V (Proc.devRef .tc main_arg11) = V (Proc.devRef .tc main_arg11) := by after_results_simp
theorem keep3_arg12 (V : Valuation τ sig (Elt Ideal)) : StableHlo.after hostOps3 V (Proc.devRef .tc main_arg12) = V (Proc.devRef .tc main_arg12) := by after_results_simp

theorem s5_v86 (V : Valuation τ sig (Elt Ideal)) (x0 : (⟨Cert.ReferenceIdeal.S50000x64, .f32⟩ : BufTy).Contents (Elt Ideal)) (x1 : (⟨Cert.ReferenceIdeal.S2x800000, .i32⟩ : BufTy).Contents (Elt Ideal)) (x2 : (⟨Cert.ReferenceIdeal.S50000, .i1⟩ : BufTy).Contents (Elt Ideal)) (x3 : (⟨Cert.ReferenceIdeal.S800000, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x64, .f32⟩ : BufTy).Contents (Elt Ideal)) (x8 : (⟨Cert.ReferenceIdeal.S64, .f32⟩ : BufTy).Contents (Elt Ideal)) (x9 : (⟨Cert.ReferenceIdeal.S64x64, .f32⟩ : BufTy).Contents (Elt Ideal))
    (hh : V (Proc.devRef .tc main_v74) = val_main_v85 (F := Ideal) x0 x1 x2 x3 x5 x6 x7 x8 x9)
    (h1 : V (Proc.devRef .tc main_v1) = val_main_v1 (F := Ideal) x1) (h3 : V (Proc.devRef .tc main_v3) = val_main_v3 (F := Ideal) x1)
    (hc : V (Proc.devRef .tc main_v43) = val_main_v51 (F := Ideal) x1) :
    StableHlo.after hostOps5 V (Proc.devRef .tc main_v86) = val_main_v98 (F := Ideal) x0 x1 x2 x3 x5 x6 x7 x8 x9 := by
  after_results_simp; rw [hh, h1, h3, hc]; rfl
theorem s5_v87 (V : Valuation τ sig (Elt Ideal)) : StableHlo.after hostOps5 V (Proc.devRef .tc main_v87) = val_main_v102 (F := Ideal) (V (Proc.devRef .tc main_arg10)) := by
  after_results_simp; exact row64 _
theorem keep5_v74 (V : Valuation τ sig (Elt Ideal)) : StableHlo.after hostOps5 V (Proc.devRef .tc main_v74) = V (Proc.devRef .tc main_v74) := by after_results_simp
theorem keep5_v42 (V : Valuation τ sig (Elt Ideal)) : StableHlo.after hostOps5 V (Proc.devRef .tc main_v42) = V (Proc.devRef .tc main_v42) := by after_results_simp
theorem keep5_arg4 (V : Valuation τ sig (Elt Ideal)) : StableHlo.after hostOps5 V (Proc.devRef .tc main_arg4) = V (Proc.devRef .tc main_arg4) := by after_results_simp
theorem keep5_arg11 (V : Valuation τ sig (Elt Ideal)) : StableHlo.after hostOps5 V (Proc.devRef .tc main_arg11) = V (Proc.devRef .tc main_arg11) := by after_results_simp
theorem keep5_arg12 (V : Valuation τ sig (Elt Ideal)) : StableHlo.after hostOps5 V (Proc.devRef .tc main_arg12) = V (Proc.devRef .tc main_arg12) := by after_results_simp

/-! ## The mean pool over graphs: segment sums of the rows and of ones, the quotient -/

theorem s6_v100 (V : Valuation τ sig (Elt Ideal)) (x0 : (⟨Cert.ReferenceIdeal.S50000x64, .f32⟩ : BufTy).Contents (Elt Ideal)) (x1 : (⟨Cert.ReferenceIdeal.S2x800000, .i32⟩ : BufTy).Contents (Elt Ideal)) (x2 : (⟨Cert.ReferenceIdeal.S50000, .i1⟩ : BufTy).Contents (Elt Ideal)) (x3 : (⟨Cert.ReferenceIdeal.S800000, .f32⟩ : BufTy).Contents (Elt Ideal)) (x4 : (⟨Cert.ReferenceIdeal.S50000, .i32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x64, .f32⟩ : BufTy).Contents (Elt Ideal)) (x8 : (⟨Cert.ReferenceIdeal.S64, .f32⟩ : BufTy).Contents (Elt Ideal)) (x9 : (⟨Cert.ReferenceIdeal.S64x64, .f32⟩ : BufTy).Contents (Elt Ideal)) (x10 : (⟨Cert.ReferenceIdeal.S64, .f32⟩ : BufTy).Contents (Elt Ideal))
    (hh : V (Proc.devRef .tc main_v88) = val_main_v104 (F := Ideal) x0 x1 x2 x3 x5 x6 x7 x8 x9 x10)
    (h4 : V (Proc.devRef .tc main_arg4) = x4) :
    StableHlo.after hostOps6 V (Proc.devRef .tc main_v100) = val_main_v116 (F := Ideal) x0 x1 x2 x3 x4 x5 x6 x7 x8 x9 x10 := by
  after_results_simp; rw [hh, h4]; rfl
theorem s6_v101 (V : Valuation τ sig (Elt Ideal)) : StableHlo.after hostOps6 V (Proc.devRef .tc main_v101) = val_main_v118 (F := Ideal) (V (Proc.devRef .tc main_arg12)) := by
  after_results_simp; exact row10 _
theorem keep6_arg11 (V : Valuation τ sig (Elt Ideal)) : StableHlo.after hostOps6 V (Proc.devRef .tc main_arg11) = V (Proc.devRef .tc main_arg11) := by after_results_simp

end Cert.KernelIdeal.Stretch

end
-- ==== Proof.RegionMatmul.lean ====
/-
  The four matrix products of the network as whole arrays. Regions 0, 2 and 4 compute h·W for h of 50000 rows and W of
  64×64 in 25 row blocks of 2000: the body rounds both blocks to bf16 (the identity on the extended reals) and multiplies
  them into a zero accumulator, so entry (p, q) of a block is ∑ₖ h(2000·t + p, k)·W(k, q) — the reference's dot_general
  read at row 2000·t + p. Every row lies in the block of point ⌊row / 2000⌋ and each point writes its block of that one
  function back, so after the 25 points the output array IS the dot_general of the two arrays the region found.
  Region 6 is the output layer on one block: pooled·Wl into a zero accumulator plus the bias row broadcast down the rows.
-/
import proofs.«130858_j4011499454822_2_alg».proof.Proof.Gen.KernelIdeal.Frame
import proofs.«130858_j4011499454822_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionMatmul

open Idealize.ShloMosaic Idealize.ShloMosaic.TcCoe Idealize.SL.Sem Idealize.ShloMosaic.ValueIdx
open Cert.KernelIdeal Cert.KernelIdeal.Gen
open Idealize.ShloMosaic.Pipeline (Dat)

/-- A [n,64]×[64,m] product read at (p,q): the sum over the contracted coordinate. -/
theorem pay_row (x0 : Vec Ideal S2000x64 .f32) (x1 : Vec Ideal S64x64 .f32) (p : Fin 2000) (q : Fin 64) :
    k0_pay1 (F := Ideal) x0 x1 (ix2 p q) = ∑ k : Fin 64, x0 (ix2 p k) * x1 (ix2 k q) := by
  unfold k0_pay1
  rw [shapeCast_self]
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => rfl
    | ⟨1, _⟩ => exact (dot_S2000x64_S64x64_S2000x64_1_0_0_1_n_n.lhsIdx_val_of_single rfl _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (dot_S2000x64_S64x64_S2000x64_1_0_0_1_n_n.rhsIdx_val_of_single rfl _ _).trans hk
    | ⟨1, _⟩ => rfl)
  rw [el, er]
  rfl

theorem ref_row (A : FVec Ideal Cert.ReferenceIdeal.S50000x64 .f32) (W : FVec Ideal Cert.ReferenceIdeal.S64x64 .f32) (r : Fin 50000) (q : Fin 64) :
    Host.dotGeneral (F := Ideal) Cert.ReferenceIdeal.dot_S50000x64_S64x64_S50000x64_1_0_0_1_n_n none A W (ix2 r q) = ∑ k : Fin 64, A (ix2 r k) * W (ix2 k q) := by
  simp only [Host.dotGeneral]
  rw [Ideal.dotGeneral_apply, ← Equiv.sum_comp (contrEquiv1 Cert.ReferenceIdeal.dot_S50000x64_S64x64_S50000x64_1_0_0_1_n_n 64 rfl rfl).symm]
  refine Finset.sum_congr rfl fun k _ => ?_
  have hk := contrEquiv1_symm_val Cert.ReferenceIdeal.dot_S50000x64_S64x64_S50000x64_1_0_0_1_n_n 64 rfl rfl k
  have el : Cert.ReferenceIdeal.dot_S50000x64_S64x64_S50000x64_1_0_0_1_n_n.lhsIdx (ix2 r q) ((contrEquiv1 Cert.ReferenceIdeal.dot_S50000x64_S64x64_S50000x64_1_0_0_1_n_n 64 rfl rfl).symm k) = ix2 r k := funext fun a => Fin.ext (by
    match a with
    | ⟨0, _⟩ => rfl
    | ⟨1, _⟩ => exact (Cert.ReferenceIdeal.dot_S50000x64_S64x64_S50000x64_1_0_0_1_n_n.lhsIdx_val_of_single rfl _ _).trans hk)
  have er : Cert.ReferenceIdeal.dot_S50000x64_S64x64_S50000x64_1_0_0_1_n_n.rhsIdx (ix2 r q) ((contrEquiv1 Cert.ReferenceIdeal.dot_S50000x64_S64x64_S50000x64_1_0_0_1_n_n 64 rfl rfl).symm k) = ix2 k q := funext fun a => Fin.ext (by
    match a with
    | ⟨0, _⟩ => exact (Cert.ReferenceIdeal.dot_S50000x64_S64x64_S50000x64_1_0_0_1_n_n.rhsIdx_val_of_single rfl _ _).trans hk
    | ⟨1, _⟩ => rfl)
  rw [el, er]

/-- A block's row of the product is the whole array's row, when the left block's row is the array's row and the right block is the whole right factor. -/
theorem block_row (x0 : Vec Ideal S2000x64 .f32) (x1 : Vec Ideal S64x64 .f32)
    (A : FVec Ideal Cert.ReferenceIdeal.S50000x64 .f32) (W : FVec Ideal Cert.ReferenceIdeal.S64x64 .f32)
    (j : S2000x64.Idx) (i : S50000x64.Idx)
    (h0 : ∀ k : Fin 64, x0 (ix2 (j 0) k) = A (ix2 (i 0) k)) (h1 : ∀ k : Fin 64, x1 (ix2 k (j 1)) = W (ix2 k (i 1))) :
    k0_pay1 (F := Ideal) x0 x1 j = Host.dotGeneral (F := Ideal) Cert.ReferenceIdeal.dot_S50000x64_S64x64_S50000x64_1_0_0_1_n_n none A W i := by
  obtain ⟨p, q, rfl⟩ : ∃ (p : Fin 2000) (q : Fin 64), j = ix2 p q := ⟨j 0, j 1, eq_ix2 j⟩
  obtain ⟨r, s, rfl⟩ : ∃ (r : Fin 50000) (s : Fin 64), i = ix2 r s := ⟨i 0, i 1, eq_ix2 i⟩
  rw [pay_row, ref_row]
  exact Finset.sum_congr rfl fun k _ => by rw [h0 k, h1 k]

theorem hz : (![0, 0] : Fin 2 → Nat) = fun _ => 0 := funext fun a => by fin_cases a <;> rfl

variable (V : (c : Dev nD) → (b : Ref sig .tc) → Buf (Elt Ideal) ((c : Thread nD τ).loc b)) (c : Dev nD)

/-! ## Region 0: the rows of the first product, block by block -/

/-- The index maps over the 25 grid points: the left factor's block moves with the output's rows, the right factor's block is fixed. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

theorem flushed0 (t : Fin cfg0.N) :
    (Gen.dat0 (F := Ideal) V c).flushed 2 t = ((cfg0.win 2).blk t).view.read (Elt Ideal)
      (Host.dotGeneral (F := Ideal) (φ₁ := .f32) (φ₂ := .f32) Cert.ReferenceIdeal.dot_S50000x64_S64x64_S50000x64_1_0_0_1_n_n none (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S2000x64) hz, View.ld_unit_zero (S := S64x64) hz]
  obtain ⟨e0, e1, e2, e3, e4, e5⟩ := idx_facts0 t
  funext j
  show k0_pay1 (F := Ideal) (iblk0 V c 0 t) (iblk0 V c 1 t) ((cfg0.win 2).xinj (grid0.coords t) j) = Host.dotGeneral (F := Ideal) (φ₁ := .f32) (φ₂ := .f32) Cert.ReferenceIdeal.dot_S50000x64_S64x64_S50000x64_1_0_0_1_n_n none (V c (Pipeline.arrRef spec0 0)) (V c (Pipeline.arrRef spec0 1)) (((cfg0.win 2).blk t).view.emb j)
  refine block_row (iblk0 V c 0 t) (iblk0 V c 1 t) _ _ _ _ (fun k => ?_) (fun k => ?_)
  · show V c (Pipeline.arrRef spec0 0) (((cfg0.win 0).blk t).view.emb (ix2 (n0 := 2000) (n1 := 64) ⟨(j 0).val, (j 0).isLt⟩ k)) = V c (Pipeline.arrRef spec0 0) _
    refine congrArg _ (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 64 + 1 * k.val = k.val; omega
  · show V c (Pipeline.arrRef spec0 1) (((cfg0.win 1).blk t).view.emb (ix2 (n0 := 64) (n1 := 64) k ⟨(j 1).val, (j 1).isLt⟩)) = V c (Pipeline.arrRef spec0 1) _
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega

/-- An index of the array is in point `t`'s block iff each coordinate is in the block's range on its axis. -/
theorem mem_blk0 (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v44).slice (win0_2.rect t)).set ↔ _
  rw [View.set_slice_whole, Rect.mem_set_unit]
  exact Iff.rfl

/-- Row `r` lies in the block of grid point `r / 2000`. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have ht : (i 0).val / 2000 < cfg0.N := (by omega : (i 0).val / 2000 < 25).trans_eq N_0.symm
  obtain ⟨-, -, -, -, e4, e5⟩ := idx_facts0 ⟨(i 0).val / 2000, ht⟩
  have e5' : win0_2.index ⟨(i 0).val / 2000, ht⟩ (0 : Fin 2) = (i 0).val / 2000 := e5
  refine ⟨⟨(i 0).val / 2000, ht⟩, flush0_2 _, ?_⟩
  rw [mem_blk0]
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; omega
  | ⟨1, _⟩ => show win0_2.index ⟨(i 0).val / 2000, ht⟩ (1 : Fin 2) * 64 ≤ (i 1).val ∧ (i 1).val < win0_2.index ⟨(i 0).val / 2000, ht⟩ (1 : Fin 2) * 64 + 64; omega

/-- Region 0's output array after its 25 grid points is the whole product. -/
theorem arr0 : (Gen.dat0 (F := Ideal) V c).arrAt 2 cfg0.N = Host.dotGeneral (F := Ideal) (φ₁ := .f32) (φ₂ := .f32) Cert.ReferenceIdeal.dot_S50000x64_S64x64_S50000x64_1_0_0_1_n_n none (V c (Pipeline.arrRef spec0 0)) (V c (Pipeline.arrRef spec0 1)) :=
  (Gen.dat0 (F := Ideal) V c).arrAt_eq_of_cover 2 _ (fun t _ => flushed0 V c t) cover0

/-- The three row-block products have the same body. -/
theorem pay2_eq (x0 : Vec Ideal S2000x64 .f32) (x1 : Vec Ideal S64x64 .f32) : k2_pay1 (F := Ideal) x0 x1 = k0_pay1 (F := Ideal) x0 x1 := rfl
theorem pay4_eq (x0 : Vec Ideal S2000x64 .f32) (x1 : Vec Ideal S64x64 .f32) : k4_pay1 (F := Ideal) x0 x1 = k0_pay1 (F := Ideal) x0 x1 := rfl

/-! ## Region 2: the second product -/

/-- The index maps over the 25 grid points: the left factor's block moves with the output's rows, the right factor's block is fixed. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

theorem flushed2 (t : Fin cfg2.N) :
    (Gen.dat2 (F := Ideal) V c).flushed 2 t = ((cfg2.win 2).blk t).view.read (Elt Ideal)
      (Host.dotGeneral (F := Ideal) (φ₁ := .f32) (φ₂ := .f32) Cert.ReferenceIdeal.dot_S50000x64_S64x64_S50000x64_1_0_0_1_n_n none (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x64) hz]
  obtain ⟨e0, e1, e2, e3, e4, e5⟩ := idx_facts2 t
  funext j
  show k2_pay1 (F := Ideal) (iblk2 V c 0 t) (iblk2 V c 1 t) ((cfg2.win 2).xinj (grid2.coords t) j) = Host.dotGeneral (F := Ideal) (φ₁ := .f32) (φ₂ := .f32) Cert.ReferenceIdeal.dot_S50000x64_S64x64_S50000x64_1_0_0_1_n_n none (V c (Pipeline.arrRef spec2 0)) (V c (Pipeline.arrRef spec2 1)) (((cfg2.win 2).blk t).view.emb j)
  rw [pay2_eq]
  refine block_row (iblk2 V c 0 t) (iblk2 V c 1 t) _ _ _ _ (fun k => ?_) (fun k => ?_)
  · show V c (Pipeline.arrRef spec2 0) (((cfg2.win 0).blk t).view.emb (ix2 (n0 := 2000) (n1 := 64) ⟨(j 0).val, (j 0).isLt⟩ k)) = V c (Pipeline.arrRef spec2 0) _
    refine congrArg _ (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 64 + 1 * k.val = k.val; omega
  · show V c (Pipeline.arrRef spec2 1) (((cfg2.win 1).blk t).view.emb (ix2 (n0 := 64) (n1 := 64) k ⟨(j 1).val, (j 1).isLt⟩)) = V c (Pipeline.arrRef spec2 1) _
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega

/-- An index of the array is in point `t`'s block iff each coordinate is in the block's range on its axis. -/
theorem mem_blk2 (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v59).slice (win2_2.rect t)).set ↔ _
  rw [View.set_slice_whole, Rect.mem_set_unit]
  exact Iff.rfl

/-- Row `r` lies in the block of grid point `r / 2000`. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have ht : (i 0).val / 2000 < cfg2.N := (by omega : (i 0).val / 2000 < 25).trans_eq N_2.symm
  obtain ⟨-, -, -, -, e4, e5⟩ := idx_facts2 ⟨(i 0).val / 2000, ht⟩
  have e5' : win2_2.index ⟨(i 0).val / 2000, ht⟩ (0 : Fin 2) = (i 0).val / 2000 := e5
  refine ⟨⟨(i 0).val / 2000, ht⟩, flush2_2 _, ?_⟩
  rw [mem_blk2]
  intro a
  match a with
  | ⟨0, _⟩ => show win2_2.index ⟨(i 0).val / 2000, ht⟩ (0 : Fin 2) * 2000 ≤ (i 0).val ∧ (i 0).val < win2_2.index ⟨(i 0).val / 2000, ht⟩ (0 : Fin 2) * 2000 + 2000; omega
  | ⟨1, _⟩ => show win2_2.index ⟨(i 0).val / 2000, ht⟩ (1 : Fin 2) * 64 ≤ (i 1).val ∧ (i 1).val < win2_2.index ⟨(i 0).val / 2000, ht⟩ (1 : Fin 2) * 64 + 64; omega

/-- Region 2's output array after its 25 grid points is the whole product. -/
theorem arr2 : (Gen.dat2 (F := Ideal) V c).arrAt 2 cfg2.N = Host.dotGeneral (F := Ideal) (φ₁ := .f32) (φ₂ := .f32) Cert.ReferenceIdeal.dot_S50000x64_S64x64_S50000x64_1_0_0_1_n_n none (V c (Pipeline.arrRef spec2 0)) (V c (Pipeline.arrRef spec2 1)) :=
  (Gen.dat2 (F := Ideal) V c).arrAt_eq_of_cover 2 _ (fun t _ => flushed2 V c t) cover2

/-! ## Region 4: the third product -/

/-- The index maps over the 25 grid points: the left factor's block moves with the output's rows, the right factor's block is fixed. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) = t.val :=
  (by decide +kernel : ∀ t : Fin grid4.N, _)

theorem flushed4 (t : Fin cfg4.N) :
    (Gen.dat4 (F := Ideal) V c).flushed 2 t = ((cfg4.win 2).blk t).view.read (Elt Ideal)
      (Host.dotGeneral (F := Ideal) (φ₁ := .f32) (φ₂ := .f32) Cert.ReferenceIdeal.dot_S50000x64_S64x64_S50000x64_1_0_0_1_n_n none (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S2000x64) hz, View.ld_unit_zero (S := S64x64) hz]
  obtain ⟨e0, e1, e2, e3, e4, e5⟩ := idx_facts4 t
  funext j
  show k4_pay1 (F := Ideal) (iblk4 V c 0 t) (iblk4 V c 1 t) ((cfg4.win 2).xinj (grid4.coords t) j) = Host.dotGeneral (F := Ideal) (φ₁ := .f32) (φ₂ := .f32) Cert.ReferenceIdeal.dot_S50000x64_S64x64_S50000x64_1_0_0_1_n_n none (V c (Pipeline.arrRef spec4 0)) (V c (Pipeline.arrRef spec4 1)) (((cfg4.win 2).blk t).view.emb j)
  rw [pay4_eq]
  refine block_row (iblk4 V c 0 t) (iblk4 V c 1 t) _ _ _ _ (fun k => ?_) (fun k => ?_)
  · show V c (Pipeline.arrRef spec4 0) (((cfg4.win 0).blk t).view.emb (ix2 (n0 := 2000) (n1 := 64) ⟨(j 0).val, (j 0).isLt⟩ k)) = V c (Pipeline.arrRef spec4 0) _
    refine congrArg _ (funext fun a => Fin.ext ?_)
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 64 + 1 * k.val = k.val; omega
  · show V c (Pipeline.arrRef spec4 1) (((cfg4.win 1).blk t).view.emb (ix2 (n0 := 64) (n1 := 64) k ⟨(j 1).val, (j 1).isLt⟩)) = V c (Pipeline.arrRef spec4 1) _
    refine congrArg _ (funext fun a => Fin.ext ?_)
    match a with
    | ⟨0, _⟩ => show win4_1.index t (0 : Fin 2) * 64 + 1 * k.val = k.val; omega
    | ⟨1, _⟩ => show win4_1.index t (1 : Fin 2) * 64 + 1 * (j 1).val = win4_2.index t (1 : Fin 2) * 64 + 1 * (j 1).val; omega

/-- An index of the array is in point `t`'s block iff each coordinate is in the block's range on its axis. -/
theorem mem_blk4 (t : Fin cfg4.N) (i : S50000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v74).slice (win4_2.rect t)).set ↔ _
  rw [View.set_slice_whole, Rect.mem_set_unit]
  exact Iff.rfl

/-- Row `r` lies in the block of grid point `r / 2000`. -/
theorem cover4 (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  have ht : (i 0).val / 2000 < cfg4.N := (by omega : (i 0).val / 2000 < 25).trans_eq N_4.symm
  obtain ⟨-, -, -, -, e4, e5⟩ := idx_facts4 ⟨(i 0).val / 2000, ht⟩
  have e5' : win4_2.index ⟨(i 0).val / 2000, ht⟩ (0 : Fin 2) = (i 0).val / 2000 := e5
  refine ⟨⟨(i 0).val / 2000, ht⟩, flush4_2 _, ?_⟩
  rw [mem_blk4]
  intro a
  match a with
  | ⟨0, _⟩ => show win4_2.index ⟨(i 0).val / 2000, ht⟩ (0 : Fin 2) * 2000 ≤ (i 0).val ∧ (i 0).val < win4_2.index ⟨(i 0).val / 2000, ht⟩ (0 : Fin 2) * 2000 + 2000; omega
  | ⟨1, _⟩ => show win4_2.index ⟨(i 0).val / 2000, ht⟩ (1 : Fin 2) * 64 ≤ (i 1).val ∧ (i 1).val < win4_2.index ⟨(i 0).val / 2000, ht⟩ (1 : Fin 2) * 64 + 64; omega

/-- Region 4's output array after its 25 grid points is the whole product. -/
theorem arr4 : (Gen.dat4 (F := Ideal) V c).arrAt 2 cfg4.N = Host.dotGeneral (F := Ideal) (φ₁ := .f32) (φ₂ := .f32) Cert.ReferenceIdeal.dot_S50000x64_S64x64_S50000x64_1_0_0_1_n_n none (V c (Pipeline.arrRef spec4 0)) (V c (Pipeline.arrRef spec4 1)) :=
  (Gen.dat4 (F := Ideal) V c).arrAt_eq_of_cover 2 _ (fun t _ => flushed4 V c t) cover4

/-! ## Region 6: the [64,64]×[64,10] product plus the bias row, one block -/

/-- The last body at (p,q): the sum over the contracted coordinate, plus the bias at column q. -/
theorem pay_row6 (x0 : Vec Ideal S64x64 .f32) (x1 : Vec Ideal S64x10 .f32) (x2 : Vec Ideal S1x10 .f32) (p : Fin 64) (q : Fin 10) :
    k6_pay1 (F := Ideal) x0 x1 x2 (ix2 p q) = (∑ k : Fin 64, x0 (ix2 p k) * x1 (ix2 k q)) + x2 (ix2 (0 : Fin 1) q) := by
  unfold k6_pay1
  rw [shapeCast_self, shapeCast_self, addf_apply]
  simp only [matmul]
  rw [Ideal.matmul_constant_zero_apply, ← Equiv.sum_comp (contrEquiv1 dot_S64x64_S64x10_S64x10_1_0_0_1_n_n 64 rfl rfl).symm,
    broadcastTo_apply x2 broadcasts_S1x10_S64x10 (ix2 p q) (ix2 (0 : Fin 1) q) (fun a => by match a with | ⟨0, _⟩ => rfl | ⟨1, _⟩ => rfl)]
  refine congrArg (· + _) (Finset.sum_congr rfl fun k _ => ?_)
  have hk := contrEquiv1_symm_val dot_S64x64_S64x10_S64x10_1_0_0_1_n_n 64 rfl rfl k
  have el : dot_S64x64_S64x10_S64x10_1_0_0_1_n_n.lhsIdx (ix2 p q) ((contrEquiv1 dot_S64x64_S64x10_S64x10_1_0_0_1_n_n 64 rfl rfl).symm k) = ix2 p k := funext fun a => Fin.ext (by
    match a with
    | ⟨0, _⟩ => rfl
    | ⟨1, _⟩ => exact (dot_S64x64_S64x10_S64x10_1_0_0_1_n_n.lhsIdx_val_of_single rfl _ _).trans hk)
  have er : dot_S64x64_S64x10_S64x10_1_0_0_1_n_n.rhsIdx (ix2 p q) ((contrEquiv1 dot_S64x64_S64x10_S64x10_1_0_0_1_n_n 64 rfl rfl).symm k) = ix2 k q := funext fun a => Fin.ext (by
    match a with
    | ⟨0, _⟩ => exact (dot_S64x64_S64x10_S64x10_1_0_0_1_n_n.rhsIdx_val_of_single rfl _ _).trans hk
    | ⟨1, _⟩ => rfl)
  rw [el, er]
  rfl

/-- The reference's last product plus its broadcast bias row, read at (p,q). -/
theorem ref_row6 (A : FVec Ideal Cert.ReferenceIdeal.S64x64 .f32) (W : FVec Ideal Cert.ReferenceIdeal.S64x10 .f32) (B : FVec Ideal Cert.ReferenceIdeal.S1x10 .f32) (p : Fin 64) (q : Fin 10) :
    addf (Host.dotGeneral (F := Ideal) Cert.ReferenceIdeal.dot_S64x64_S64x10_S64x10_1_0_0_1_n_n none A W)
      (broadcastInDim Cert.ReferenceIdeal.S64x10 ![0, 1] Cert.ReferenceIdeal.Facts₀.bcast_S1x10_S64x10_0_1 B) (ix2 p q)
      = (∑ k : Fin 64, A (ix2 p k) * W (ix2 k q)) + B (ix2 (0 : Fin 1) q) := by
  rw [addf_apply]
  simp only [Host.dotGeneral]
  rw [Ideal.dotGeneral_apply, ← Equiv.sum_comp (contrEquiv1 Cert.ReferenceIdeal.dot_S64x64_S64x10_S64x10_1_0_0_1_n_n 64 rfl rfl).symm,
    broadcastInDim_apply ![0, 1] Cert.ReferenceIdeal.Facts₀.bcast_S1x10_S64x10_0_1 B (ix2 p q) (ix2 (0 : Fin 1) q) (fun a => by match a with | ⟨0, _⟩ => rfl | ⟨1, _⟩ => rfl)]
  refine congrArg (· + _) (Finset.sum_congr rfl fun k _ => ?_)
  have hk := contrEquiv1_symm_val Cert.ReferenceIdeal.dot_S64x64_S64x10_S64x10_1_0_0_1_n_n 64 rfl rfl k
  have el : Cert.ReferenceIdeal.dot_S64x64_S64x10_S64x10_1_0_0_1_n_n.lhsIdx (ix2 p q) ((contrEquiv1 Cert.ReferenceIdeal.dot_S64x64_S64x10_S64x10_1_0_0_1_n_n 64 rfl rfl).symm k) = ix2 p k := funext fun a => Fin.ext (by
    match a with
    | ⟨0, _⟩ => rfl
    | ⟨1, _⟩ => exact (Cert.ReferenceIdeal.dot_S64x64_S64x10_S64x10_1_0_0_1_n_n.lhsIdx_val_of_single rfl _ _).trans hk)
  have er : Cert.ReferenceIdeal.dot_S64x64_S64x10_S64x10_1_0_0_1_n_n.rhsIdx (ix2 p q) ((contrEquiv1 Cert.ReferenceIdeal.dot_S64x64_S64x10_S64x10_1_0_0_1_n_n 64 rfl rfl).symm k) = ix2 k q := funext fun a => Fin.ext (by
    match a with
    | ⟨0, _⟩ => exact (Cert.ReferenceIdeal.dot_S64x64_S64x10_S64x10_1_0_0_1_n_n.rhsIdx_val_of_single rfl _ _).trans hk
    | ⟨1, _⟩ => rfl)
  rw [el, er]

/-- The one block is the whole array: the body's result at an index is the reference's at the same index when the blocks are the arrays. -/
theorem block_row6 (x0 : Vec Ideal S64x64 .f32) (x1 : Vec Ideal S64x10 .f32) (x2 : Vec Ideal S1x10 .f32)
    (A : FVec Ideal Cert.ReferenceIdeal.S64x64 .f32) (W : FVec Ideal Cert.ReferenceIdeal.S64x10 .f32) (B : FVec Ideal Cert.ReferenceIdeal.S1x10 .f32)
    (j : S64x10.Idx) (i : S64x10.Idx)
    (h0 : ∀ k : Fin 64, x0 (ix2 (j 0) k) = A (ix2 (i 0) k)) (h1 : ∀ k : Fin 64, x1 (ix2 k (j 1)) = W (ix2 k (i 1)))
    (h2 : x2 (ix2 (0 : Fin 1) (j 1)) = B (ix2 (0 : Fin 1) (i 1))) :
    k6_pay1 (F := Ideal) x0 x1 x2 j = addf (Host.dotGeneral (F := Ideal) Cert.ReferenceIdeal.dot_S64x64_S64x10_S64x10_1_0_0_1_n_n none A W)
      (broadcastInDim Cert.ReferenceIdeal.S64x10 ![0, 1] Cert.ReferenceIdeal.Facts₀.bcast_S1x10_S64x10_0_1 B) i := by
  obtain ⟨p, q, rfl⟩ : ∃ (p : Fin 64) (q : Fin 10), j = ix2 p q := ⟨j 0, j 1, eq_ix2 j⟩
  obtain ⟨r, s, rfl⟩ : ∃ (r : Fin 64) (s : Fin 10), i = ix2 r s := ⟨i 0, i 1, eq_ix2 i⟩
  rw [pay_row6, ref_row6]
  exact congrArg₂ (· + ·) (Finset.sum_congr rfl fun k _ => by rw [h0 k, h1 k]) h2

/-- The one grid point's index maps: every window's block index is zero on both axes. -/
theorem idx_facts6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

theorem flushed6 (t : Fin cfg6.N) :
    (Gen.dat6 (F := Ideal) V c).flushed 3 t = ((cfg6.win 3).blk t).view.read (Elt Ideal)
      (addf (Host.dotGeneral (F := Ideal) (φ₁ := .f32) (φ₂ := .f32) Cert.ReferenceIdeal.dot_S64x64_S64x10_S64x10_1_0_0_1_n_n none (V c (Pipeline.arrRef spec6 0)) (V c (Pipeline.arrRef spec6 1))) (broadcastInDim Cert.ReferenceIdeal.S64x10 ![0, 1] Cert.ReferenceIdeal.Facts₀.bcast_S1x10_S64x10_0_1 (V c (Pipeline.arrRef spec6 2)))) := by
  show (cfg6.win 3).cut (grid6.coords t) ((dat6 V c).after 3 t) = _
  rw [after6_3]
  unfold out6_3
  rw [View.canon_unit_zero hz]
  simp only [View.ld_unit_zero (S := S64x64) hz, View.ld_unit_zero (S := S64x10) hz, View.ld_unit_zero (S := S1x10) hz]
  obtain ⟨a0, a1, b0, b1, c0, c1, d0, d1⟩ := idx_facts6 t
  funext j
  show k6_pay1 (F := Ideal) (iblk6 V c 0 t) (iblk6 V c 1 t) (iblk6 V c 2 t) ((cfg6.win 3).xinj (grid6.coords t) j) = (addf (Host.dotGeneral (F := Ideal) (φ₁ := .f32) (φ₂ := .f32) Cert.ReferenceIdeal.dot_S64x64_S64x10_S64x10_1_0_0_1_n_n none (V c (Pipeline.arrRef spec6 0)) (V c (Pipeline.arrRef spec6 1))) (broadcastInDim Cert.ReferenceIdeal.S64x10 ![0, 1] Cert.ReferenceIdeal.Facts₀.bcast_S1x10_S64x10_0_1 (V c (Pipeline.arrRef spec6 2)))) (((cfg6.win 3).blk t).view.emb j)
  refine block_row6 (iblk6 V c 0 t) (iblk6 V c 1 t) (iblk6 V c 2 t) _ _ _ _ _ (fun k => ?_) (fun k => ?_) ?_
  · show V c (Pipeline.arrRef spec6 0) (((cfg6.win 0).blk t).view.emb (ix2 (n0 := 64) (n1 := 64) ⟨(j 0).val, (j 0).isLt⟩ k)) = V c (Pipeline.arrRef spec6 0) _
    refine congrArg _ (funext fun a => Fin.ext ?_)
    match a with
    | ⟨0, _⟩ => show win6_0.index t (0 : Fin 2) * 64 + 1 * (j 0).val = win6_3.index t (0 : Fin 2) * 64 + 1 * (j 0).val; omega
    | ⟨1, _⟩ => show win6_0.index t (1 : Fin 2) * 64 + 1 * k.val = k.val; omega
  · show V c (Pipeline.arrRef spec6 1) (((cfg6.win 1).blk t).view.emb (ix2 (n0 := 64) (n1 := 10) k ⟨(j 1).val, (j 1).isLt⟩)) = V c (Pipeline.arrRef spec6 1) _
    refine congrArg _ (funext fun a => Fin.ext ?_)
    match a with
    | ⟨0, _⟩ => show win6_1.index t (0 : Fin 2) * 64 + 1 * k.val = k.val; omega
    | ⟨1, _⟩ => show win6_1.index t (1 : Fin 2) * 10 + 1 * (j 1).val = win6_3.index t (1 : Fin 2) * 10 + 1 * (j 1).val; omega
  · show V c (Pipeline.arrRef spec6 2) (((cfg6.win 2).blk t).view.emb (ix2 (n0 := 1) (n1 := 10) (0 : Fin 1) ⟨(j 1).val, (j 1).isLt⟩)) = V c (Pipeline.arrRef spec6 2) _
    refine congrArg _ (funext fun a => Fin.ext ?_)
    match a with
    | ⟨0, _⟩ => show win6_2.index t (0 : Fin 2) * 1 + 1 * (0 : Fin 1).val = (0 : Fin 1).val; omega
    | ⟨1, _⟩ => show win6_2.index t (1 : Fin 2) * 10 + 1 * (j 1).val = win6_3.index t (1 : Fin 2) * 10 + 1 * (j 1).val; omega

/-- An index of the array is in point `t`'s block iff each coordinate is in the block's range on its axis. -/
theorem mem_blk6 (t : Fin cfg6.N) (i : S64x10.Idx) :
    i ∈ ((cfg6.win 3).blk t).view.set ↔ ∀ a : Fin 2, win6_3.index t a * S64x10.size a ≤ (i a).val ∧ (i a).val < win6_3.index t a * S64x10.size a + S64x10.size a := by
  show i ∈ ((View.whole main_v102).slice (win6_3.rect t)).set ↔ _
  rw [View.set_slice_whole, Rect.mem_set_unit]
  exact Iff.rfl

/-- The one block holds every index. -/
theorem cover6 (i : S64x10.Idx) : ∃ t : Fin cfg6.N, (cfg6.win 3).flush t = true ∧ i ∈ ((cfg6.win 3).blk t).view.set := by
  have hi0 : (i 0).val < 64 := (i 0).isLt
  have hi1 : (i 1).val < 10 := (i 1).isLt
  have ht : 0 < cfg6.N := Nat.zero_lt_one.trans_eq N_6.symm
  obtain ⟨-, -, -, -, -, -, d0, d1⟩ := idx_facts6 ⟨0, ht⟩
  refine ⟨⟨0, ht⟩, flush6_3 _, ?_⟩
  rw [mem_blk6]
  intro a
  match a with
  | ⟨0, _⟩ => show win6_3.index ⟨0, ht⟩ (0 : Fin 2) * 64 ≤ (i 0).val ∧ (i 0).val < win6_3.index ⟨0, ht⟩ (0 : Fin 2) * 64 + 64; omega
  | ⟨1, _⟩ => show win6_3.index ⟨0, ht⟩ (1 : Fin 2) * 10 ≤ (i 1).val ∧ (i 1).val < win6_3.index ⟨0, ht⟩ (1 : Fin 2) * 10 + 10; omega

/-- Region 6's output array after its one grid point is the product plus the broadcast bias row. -/
theorem arr6 : (Gen.dat6 (F := Ideal) V c).arrAt 3 cfg6.N = addf (Host.dotGeneral (F := Ideal) (φ₁ := .f32) (φ₂ := .f32) Cert.ReferenceIdeal.dot_S64x64_S64x10_S64x10_1_0_0_1_n_n none (V c (Pipeline.arrRef spec6 0)) (V c (Pipeline.arrRef spec6 1))) (broadcastInDim Cert.ReferenceIdeal.S64x10 ![0, 1] Cert.ReferenceIdeal.Facts₀.bcast_S1x10_S64x10_0_1 (V c (Pipeline.arrRef spec6 2))) :=
  (Gen.dat6 (F := Ideal) V c).arrAt_eq_of_cover 3 _ (fun t _ => flushed6 V c t) cover6

end Cert.KernelIdeal.RegionMatmul
-- ==== Proof.RegionCombine.lean ====
/- The three pointwise regions of the kernel program (the two "combine, then relu" regions and the
   "combine" region): each region's output array, after the region has run on entry contents V, is one
   whole-array expression of the region's four input arrays. Read at row r and column q the expression is
   max(agg(r,q) + hp(r,q) * sc(r,0) + b(0,q), 0), resp. the same without the max; the region computes it on
   25 blocks of 2000 rows, block t holding rows 2000 t .. 2000 t + 1999. -/
import proofs.«130858_j4011499454822_2_alg».proof.Proof.Gen.KernelIdeal.Frame
import proofs.«130858_j4011499454822_2_alg».proof.ReferenceIdeal
import proofs.«130858_j4011499454822_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionCombine

open Idealize.ShloMosaic Idealize.ShloMosaic.TcCoe Idealize.SL.Sem Idealize.ShloMosaic.ValueIdx
open Cert.KernelIdeal Cert.KernelIdeal.Gen
open Idealize.ShloMosaic.Pipeline (Dat)

/-- The all-zero offset of a rank-2 rectangle, spelt as a constant function. -/
theorem hz : (![0, 0] : Fin 2 → Nat) = fun _ => 0 := funext fun a => by fin_cases a <;> rfl

/-! ## The block payloads at an index -/

/-- The "combine, then relu" payload at row p, column q of a block. -/
theorem payRelu_at (x0 x1 : Vec Ideal S2000x64 .f32) (x2 : Vec Ideal S2000x1 .f32) (x3 : Vec Ideal S1x64 .f32)
    (p : Fin 2000) (q : Fin 64) :
    k1_pay1 x0 x1 x2 x3 (ix2 p q)
      = max (x0 (ix2 p q) + x1 (ix2 p q) * x2 (ix2 p (0 : Fin 1)) + x3 (ix2 (0 : Fin 1) q)) (Ideal.ofBits .f32 0x00000000#32) := by
  unfold k1_pay1
  simp only [shapeCast_self]
  rw [maximumf_apply, addf_apply, addf_apply, mulf_apply, broadcast_apply]
  rw [broadcastTo_apply x2 broadcasts_S2000x1_S2000x64 (ix2 p q) (ix2 p (0 : Fin 1)) (fun a => by
      match a with
      | ⟨0, _⟩ => rfl
      | ⟨1, _⟩ => rfl),
    broadcastTo_apply x3 broadcasts_S1x64_S2000x64 (ix2 p q) (ix2 (0 : Fin 1) q) (fun a => by
      match a with
      | ⟨0, _⟩ => rfl
      | ⟨1, _⟩ => rfl)]
  rfl

/-! ## The whole-array expressions at an index -/

/-- The "combine, then relu" region's result as one expression of its four input arrays. -/
def combRelu (a0 a1 : Vec Ideal S50000x64 .f32) (a2 : Vec Ideal S50000x1 .f32) (a3 : Vec Ideal S1x64 .f32) :
    Vec Ideal S50000x64 .f32 :=
  maximumf (addf (addf a0 (mulf a1 (broadcastInDim Cert.ReferenceIdeal.S50000x64 ![0, 1] Cert.ReferenceIdeal.Gen.bcast_S50000x1_S50000x64_0_1 a2)))
      (broadcastInDim Cert.ReferenceIdeal.S50000x64 ![0, 1] Cert.ReferenceIdeal.Gen.bcast_S1x64_S50000x64_0_1 a3))
    (broadcastInDim Cert.ReferenceIdeal.S50000x64 ![] Cert.ReferenceIdeal.Gen.bcast_S_S50000x64 (constant (F := Ideal) Cert.ReferenceIdeal.S_ .f32 0x00000000#32))

/-- At row r, column q it is max(a0(r,q) + a1(r,q) * a2(r,0) + a3(0,q), 0). -/
theorem combRelu_at (a0 a1 : Vec Ideal S50000x64 .f32) (a2 : Vec Ideal S50000x1 .f32) (a3 : Vec Ideal S1x64 .f32)
    (r : Fin 50000) (q : Fin 64) :
    combRelu a0 a1 a2 a3 (ix2 r q)
      = max (a0 (ix2 r q) + a1 (ix2 r q) * a2 (ix2 r (0 : Fin 1)) + a3 (ix2 (0 : Fin 1) q)) (Ideal.ofBits .f32 0x00000000#32) := by
  unfold combRelu
  rw [maximumf_apply, addf_apply, addf_apply, mulf_apply]
  rw [broadcastInDim_apply _ Cert.ReferenceIdeal.Gen.bcast_S50000x1_S50000x64_0_1 a2 (ix2 r q) (ix2 r (0 : Fin 1)) (fun a => by
      match a with
      | ⟨0, _⟩ => rfl
      | ⟨1, _⟩ => rfl),
    broadcastInDim_apply _ Cert.ReferenceIdeal.Gen.bcast_S1x64_S50000x64_0_1 a3 (ix2 r q) (ix2 (0 : Fin 1) q) (fun a => by
      match a with
      | ⟨0, _⟩ => rfl
      | ⟨1, _⟩ => rfl),
    broadcastInDim_apply _ Cert.ReferenceIdeal.Gen.bcast_S_S50000x64 (constant (F := Ideal) Cert.ReferenceIdeal.S_ .f32 0x00000000#32) (ix2 r q) ix0 (fun a => a.elim0)]
  rfl

/-! ## Region 1: blocks, write-backs, the cover -/

section Region1
variable (V : (c : Dev nD) → (b : Ref sig .tc) → Buf (Elt Ideal) ((c : Thread nD τ).loc b)) (c : Dev nD)

/-- The block index maps over the 25 grid points: windows 0, 1, 2 and the output sit at block row t, column
    block 0; window 3 is the whole bias row at every point. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Element (p, q) of block t of a [50000,64] array windowed by rows is element (2000 t + p, q) of the array. -/
theorem blk1_0_at (A : Vec Ideal S50000x64 .f32) (t : Fin cfg1.N) (p : Fin 2000) (q : Fin 64) (h : t.val * 2000 + p.val < 50000) :
    ((cfg1.win 0).blk t).view.read (Elt Ideal) A (ix2 p q) = A (ix2 (⟨t.val * 2000 + p.val, h⟩ : Fin 50000) q) := by
  obtain ⟨e0, e1, e2, e3, e4, e5, e6, e7, e8, e9⟩ := idx1 t
  show A (((cfg1.win 0).blk t).view.emb (ix2 p q)) = _
  congr 1
  funext a; apply Fin.ext
  match a with
  | ⟨0, _⟩ => show win1_0.index t (0 : Fin 2) * 2000 + 1 * p.val = t.val * 2000 + p.val; omega
  | ⟨1, _⟩ => show win1_0.index t (1 : Fin 2) * 64 + 1 * q.val = q.val; omega

theorem blk1_1_at (A : Vec Ideal S50000x64 .f32) (t : Fin cfg1.N) (p : Fin 2000) (q : Fin 64) (h : t.val * 2000 + p.val < 50000) :
    ((cfg1.win 1).blk t).view.read (Elt Ideal) A (ix2 p q) = A (ix2 (⟨t.val * 2000 + p.val, h⟩ : Fin 50000) q) := by
  obtain ⟨e0, e1, e2, e3, e4, e5, e6, e7, e8, e9⟩ := idx1 t
  show A (((cfg1.win 1).blk t).view.emb (ix2 p q)) = _
  congr 1
  funext a; apply Fin.ext
  match a with
  | ⟨0, _⟩ => show win1_1.index t (0 : Fin 2) * 2000 + 1 * p.val = t.val * 2000 + p.val; omega
  | ⟨1, _⟩ => show win1_1.index t (1 : Fin 2) * 64 + 1 * q.val = q.val; omega

/-- Element (p, 0) of block t of the [50000,1] column is element (2000 t + p, 0) of the column. -/
theorem blk1_2_at (A : Vec Ideal S50000x1 .f32) (t : Fin cfg1.N) (p : Fin 2000) (h : t.val * 2000 + p.val < 50000) :
    ((cfg1.win 2).blk t).view.read (Elt Ideal) A (ix2 p (0 : Fin 1)) = A (ix2 (⟨t.val * 2000 + p.val, h⟩ : Fin 50000) (0 : Fin 1)) := by
  obtain ⟨e0, e1, e2, e3, e4, e5, e6, e7, e8, e9⟩ := idx1 t
  show A (((cfg1.win 2).blk t).view.emb (ix2 p (0 : Fin 1))) = _
  congr 1
  funext a; apply Fin.ext
  match a with
  | ⟨0, _⟩ => show win1_2.index t (0 : Fin 2) * 2000 + 1 * p.val = t.val * 2000 + p.val; omega
  | ⟨1, _⟩ => show win1_2.index t (1 : Fin 2) * 1 + 1 * 0 = 0; omega

/-- The bias row's one block is the row itself, at every point. -/
theorem blk1_3_at (A : Vec Ideal S1x64 .f32) (t : Fin cfg1.N) (q : Fin 64) :
    ((cfg1.win 3).blk t).view.read (Elt Ideal) A (ix2 (0 : Fin 1) q) = A (ix2 (0 : Fin 1) q) := by
  obtain ⟨e0, e1, e2, e3, e4, e5, e6, e7, e8, e9⟩ := idx1 t
  show A (((cfg1.win 3).blk t).view.emb (ix2 (0 : Fin 1) q)) = _
  congr 1
  funext a; apply Fin.ext
  match a with
  | ⟨0, _⟩ => show win1_3.index t (0 : Fin 2) * 1 + 1 * 0 = 0; omega
  | ⟨1, _⟩ => show win1_3.index t (1 : Fin 2) * 64 + 1 * q.val = q.val; omega

theorem blk1_4_at (A : Vec Ideal S50000x64 .f32) (t : Fin cfg1.N) (p : Fin 2000) (q : Fin 64) (h : t.val * 2000 + p.val < 50000) :
    ((cfg1.win 4).blk t).view.read (Elt Ideal) A (ix2 p q) = A (ix2 (⟨t.val * 2000 + p.val, h⟩ : Fin 50000) q) := by
  obtain ⟨e0, e1, e2, e3, e4, e5, e6, e7, e8, e9⟩ := idx1 t
  show A (((cfg1.win 4).blk t).view.emb (ix2 p q)) = _
  congr 1
  funext a; apply Fin.ext
  match a with
  | ⟨0, _⟩ => show win1_4.index t (0 : Fin 2) * 2000 + 1 * p.val = t.val * 2000 + p.val; omega
  | ⟨1, _⟩ => show win1_4.index t (1 : Fin 2) * 64 + 1 * q.val = q.val; omega

/-- What point t writes back is the payload of the four input blocks at t. -/
theorem flushed1_pay (t : Fin cfg1.N) :
    (dat1 (F := Ideal) V c).flushed 4 t = k1_pay1 (iblk1 V c 0 t) (iblk1 V c 1 t) (iblk1 V c 2 t) (iblk1 V c 3 t) := by
  show (cfg1.win 4).cut (grid1.coords t) ((dat1 V c).after 4 t) = _
  rw [after1_4]
  unfold out1_4
  rw [View.canon_unit_zero hz]
  simp only [View.ld_unit_zero (S := S2000x64) hz, View.ld_unit_zero (S := S2000x1) hz, View.ld_unit_zero (S := S1x64) hz]
  rfl

/-- So it is block t of the whole-array expression of the four input arrays. -/
theorem flushed1 (t : Fin cfg1.N) :
    (dat1 (F := Ideal) V c).flushed 4 t = ((cfg1.win 4).blk t).view.read (Elt Ideal)
      (combRelu (V c (Pipeline.arrRef spec1 0)) (V c (Pipeline.arrRef spec1 1)) (V c (Pipeline.arrRef spec1 2)) (V c (Pipeline.arrRef spec1 3))) := by
  refine (flushed1_pay V c t).trans ?_
  funext j
  obtain ⟨p, q, rfl⟩ : ∃ (p : Fin 2000) (q : Fin 64), j = ix2 p q := ⟨j 0, j 1, eq_ix2 j⟩
  have hN : cfg1.N = 25 := N_1
  have ht : t.val < 25 := Nat.lt_of_lt_of_eq t.isLt hN
  have hp : p.val < 2000 := p.isLt
  have h : t.val * 2000 + p.val < 50000 := by omega
  refine (payRelu_at _ _ _ _ p q).trans ?_
  refine Eq.trans ?_ (blk1_4_at _ t p q h).symm
  rw [combRelu_at]
  refine congrArg (fun u : Ideal .f32 => max u (Ideal.ofBits .f32 0x00000000#32)) ?_
  refine congrArg₂ (fun u v : Ideal .f32 => u + v)
    (congrArg₂ (fun u v : Ideal .f32 => u + v) ?_ (congrArg₂ (fun u v : Ideal .f32 => u * v) ?_ ?_)) ?_
  · exact blk1_0_at _ t p q h
  · exact blk1_1_at _ t p q h
  · exact blk1_2_at _ t p h
  · exact blk1_3_at _ t q

/-- An index of the output array is in point t's block iff each coordinate is in the block's range on its axis. -/
theorem mem_blk1 (t : Fin cfg1.N) (i : S50000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v58).slice (win1_4.rect t)).set ↔ _
  rw [View.set_slice_whole, Rect.mem_set_unit]
  exact Iff.rfl

/-- Row r of the output array is in the block of point r / 2000. -/
theorem cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 25 := N_1
  have hlt : (i 0).val / 2000 < cfg1.N := by rw [hN]; omega
  obtain ⟨e0, e1, e2, e3, e4, e5, e6, e7, e8, e9⟩ := idx1 ⟨(i 0).val / 2000, hlt⟩
  have e8' : win1_4.index ⟨(i 0).val / 2000, hlt⟩ (0 : Fin 2) = (i 0).val / 2000 := e8
  refine ⟨⟨(i 0).val / 2000, hlt⟩, flush1_4 _, ?_⟩
  rw [mem_blk1]
  intro a
  match a with
  | ⟨0, _⟩ => show win1_4.index ⟨(i 0).val / 2000, hlt⟩ (0 : Fin 2) * 2000 ≤ (i 0).val ∧ (i 0).val < win1_4.index ⟨(i 0).val / 2000, hlt⟩ (0 : Fin 2) * 2000 + 2000; omega
  | ⟨1, _⟩ => show win1_4.index ⟨(i 0).val / 2000, hlt⟩ (1 : Fin 2) * 64 ≤ (i 1).val ∧ (i 1).val < win1_4.index ⟨(i 0).val / 2000, hlt⟩ (1 : Fin 2) * 64 + 64; omega

/-- REGION 1: after the region the output array is the whole-array expression of the four input arrays. -/
theorem arr1 : (Gen.dat1 (F := Ideal) V c).arrAt 4 cfg1.N
    = maximumf (addf (addf (V c (Pipeline.arrRef spec1 0)) (mulf (V c (Pipeline.arrRef spec1 1)) (broadcastInDim Cert.ReferenceIdeal.S50000x64 ![0, 1] Cert.ReferenceIdeal.Gen.bcast_S50000x1_S50000x64_0_1 (V c (Pipeline.arrRef spec1 2))))) (broadcastInDim Cert.ReferenceIdeal.S50000x64 ![0, 1] Cert.ReferenceIdeal.Gen.bcast_S1x64_S50000x64_0_1 (V c (Pipeline.arrRef spec1 3)))) (broadcastInDim Cert.ReferenceIdeal.S50000x64 ![] Cert.ReferenceIdeal.Gen.bcast_S_S50000x64 (constant (F := Ideal) Cert.ReferenceIdeal.S_ .f32 0x00000000#32)) :=
  (dat1 V c).arrAt_eq_of_cover 4
    (combRelu (V c (Pipeline.arrRef spec1 0)) (V c (Pipeline.arrRef spec1 1)) (V c (Pipeline.arrRef spec1 2)) (V c (Pipeline.arrRef spec1 3)))
    (fun t _ => flushed1 V c t) cover1

end Region1

/-- Region 3's payload is the same expression of its four blocks. -/
theorem payRelu3_at (x0 x1 : Vec Ideal S2000x64 .f32) (x2 : Vec Ideal S2000x1 .f32) (x3 : Vec Ideal S1x64 .f32)
    (p : Fin 2000) (q : Fin 64) :
    k3_pay1 x0 x1 x2 x3 (ix2 p q)
      = max (x0 (ix2 p q) + x1 (ix2 p q) * x2 (ix2 p (0 : Fin 1)) + x3 (ix2 (0 : Fin 1) q)) (Ideal.ofBits .f32 0x00000000#32) :=
  payRelu_at x0 x1 x2 x3 p q

/-! ## Region 3: blocks, write-backs, the cover -/

section Region3
variable (V : (c : Dev nD) → (b : Ref sig .tc) → Buf (Elt Ideal) ((c : Thread nD τ).loc b)) (c : Dev nD)

/-- The block index maps over the 25 grid points: windows 0, 1, 2 and the output sit at block row t, column
    block 0; window 3 is the whole bias row at every point. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Element (p, q) of block t of a [50000,64] array windowed by rows is element (2000 t + p, q) of the array. -/
theorem blk3_0_at (A : Vec Ideal S50000x64 .f32) (t : Fin cfg3.N) (p : Fin 2000) (q : Fin 64) (h : t.val * 2000 + p.val < 50000) :
    ((cfg3.win 0).blk t).view.read (Elt Ideal) A (ix2 p q) = A (ix2 (⟨t.val * 2000 + p.val, h⟩ : Fin 50000) q) := by
  obtain ⟨e0, e1, e2, e3, e4, e5, e6, e7, e8, e9⟩ := idx3 t
  show A (((cfg3.win 0).blk t).view.emb (ix2 p q)) = _
  congr 1
  funext a; apply Fin.ext
  match a with
  | ⟨0, _⟩ => show win3_0.index t (0 : Fin 2) * 2000 + 1 * p.val = t.val * 2000 + p.val; omega
  | ⟨1, _⟩ => show win3_0.index t (1 : Fin 2) * 64 + 1 * q.val = q.val; omega

theorem blk3_1_at (A : Vec Ideal S50000x64 .f32) (t : Fin cfg3.N) (p : Fin 2000) (q : Fin 64) (h : t.val * 2000 + p.val < 50000) :
    ((cfg3.win 1).blk t).view.read (Elt Ideal) A (ix2 p q) = A (ix2 (⟨t.val * 2000 + p.val, h⟩ : Fin 50000) q) := by
  obtain ⟨e0, e1, e2, e3, e4, e5, e6, e7, e8, e9⟩ := idx3 t
  show A (((cfg3.win 1).blk t).view.emb (ix2 p q)) = _
  congr 1
  funext a; apply Fin.ext
  match a with
  | ⟨0, _⟩ => show win3_1.index t (0 : Fin 2) * 2000 + 1 * p.val = t.val * 2000 + p.val; omega
  | ⟨1, _⟩ => show win3_1.index t (1 : Fin 2) * 64 + 1 * q.val = q.val; omega

/-- Element (p, 0) of block t of the [50000,1] column is element (2000 t + p, 0) of the column. -/
theorem blk3_2_at (A : Vec Ideal S50000x1 .f32) (t : Fin cfg3.N) (p : Fin 2000) (h : t.val * 2000 + p.val < 50000) :
    ((cfg3.win 2).blk t).view.read (Elt Ideal) A (ix2 p (0 : Fin 1)) = A (ix2 (⟨t.val * 2000 + p.val, h⟩ : Fin 50000) (0 : Fin 1)) := by
  obtain ⟨e0, e1, e2, e3, e4, e5, e6, e7, e8, e9⟩ := idx3 t
  show A (((cfg3.win 2).blk t).view.emb (ix2 p (0 : Fin 1))) = _
  congr 1
  funext a; apply Fin.ext
  match a with
  | ⟨0, _⟩ => show win3_2.index t (0 : Fin 2) * 2000 + 1 * p.val = t.val * 2000 + p.val; omega
  | ⟨1, _⟩ => show win3_2.index t (1 : Fin 2) * 1 + 1 * 0 = 0; omega

/-- The bias row's one block is the row itself, at every point. -/
theorem blk3_3_at (A : Vec Ideal S1x64 .f32) (t : Fin cfg3.N) (q : Fin 64) :
    ((cfg3.win 3).blk t).view.read (Elt Ideal) A (ix2 (0 : Fin 1) q) = A (ix2 (0 : Fin 1) q) := by
  obtain ⟨e0, e1, e2, e3, e4, e5, e6, e7, e8, e9⟩ := idx3 t
  show A (((cfg3.win 3).blk t).view.emb (ix2 (0 : Fin 1) q)) = _
  congr 1
  funext a; apply Fin.ext
  match a with
  | ⟨0, _⟩ => show win3_3.index t (0 : Fin 2) * 1 + 1 * 0 = 0; omega
  | ⟨1, _⟩ => show win3_3.index t (1 : Fin 2) * 64 + 1 * q.val = q.val; omega

theorem blk3_4_at (A : Vec Ideal S50000x64 .f32) (t : Fin cfg3.N) (p : Fin 2000) (q : Fin 64) (h : t.val * 2000 + p.val < 50000) :
    ((cfg3.win 4).blk t).view.read (Elt Ideal) A (ix2 p q) = A (ix2 (⟨t.val * 2000 + p.val, h⟩ : Fin 50000) q) := by
  obtain ⟨e0, e1, e2, e3, e4, e5, e6, e7, e8, e9⟩ := idx3 t
  show A (((cfg3.win 4).blk t).view.emb (ix2 p q)) = _
  congr 1
  funext a; apply Fin.ext
  match a with
  | ⟨0, _⟩ => show win3_4.index t (0 : Fin 2) * 2000 + 1 * p.val = t.val * 2000 + p.val; omega
  | ⟨1, _⟩ => show win3_4.index t (1 : Fin 2) * 64 + 1 * q.val = q.val; omega

/-- What point t writes back is the payload of the four input blocks at t. -/
theorem flushed3_pay (t : Fin cfg3.N) :
    (dat3 (F := Ideal) V c).flushed 4 t = k3_pay1 (iblk3 V c 0 t) (iblk3 V c 1 t) (iblk3 V c 2 t) (iblk3 V c 3 t) := by
  show (cfg3.win 4).cut (grid3.coords t) ((dat3 V c).after 4 t) = _
  rw [after3_4]
  unfold out3_4
  rw [View.canon_unit_zero hz]
  simp only [View.ld_unit_zero (S := S2000x64) hz, View.ld_unit_zero (S := S2000x1) hz, View.ld_unit_zero (S := S1x64) hz]
  rfl

/-- So it is block t of the whole-array expression of the four input arrays. -/
theorem flushed3 (t : Fin cfg3.N) :
    (dat3 (F := Ideal) V c).flushed 4 t = ((cfg3.win 4).blk t).view.read (Elt Ideal)
      (combRelu (V c (Pipeline.arrRef spec3 0)) (V c (Pipeline.arrRef spec3 1)) (V c (Pipeline.arrRef spec3 2)) (V c (Pipeline.arrRef spec3 3))) := by
  refine (flushed3_pay V c t).trans ?_
  funext j
  obtain ⟨p, q, rfl⟩ : ∃ (p : Fin 2000) (q : Fin 64), j = ix2 p q := ⟨j 0, j 1, eq_ix2 j⟩
  have hN : cfg3.N = 25 := N_3
  have ht : t.val < 25 := Nat.lt_of_lt_of_eq t.isLt hN
  have hp : p.val < 2000 := p.isLt
  have h : t.val * 2000 + p.val < 50000 := by omega
  refine (payRelu3_at _ _ _ _ p q).trans ?_
  refine Eq.trans ?_ (blk3_4_at _ t p q h).symm
  rw [combRelu_at]
  refine congrArg (fun u : Ideal .f32 => max u (Ideal.ofBits .f32 0x00000000#32)) ?_
  refine congrArg₂ (fun u v : Ideal .f32 => u + v)
    (congrArg₂ (fun u v : Ideal .f32 => u + v) ?_ (congrArg₂ (fun u v : Ideal .f32 => u * v) ?_ ?_)) ?_
  · exact blk3_0_at _ t p q h
  · exact blk3_1_at _ t p q h
  · exact blk3_2_at _ t p h
  · exact blk3_3_at _ t q

/-- An index of the output array is in point t's block iff each coordinate is in the block's range on its axis. -/
theorem mem_blk3 (t : Fin cfg3.N) (i : S50000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v73).slice (win3_4.rect t)).set ↔ _
  rw [View.set_slice_whole, Rect.mem_set_unit]
  exact Iff.rfl

/-- Row r of the output array is in the block of point r / 2000. -/
theorem cover3 (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : cfg3.N = 25 := N_3
  have hlt : (i 0).val / 2000 < cfg3.N := by rw [hN]; omega
  obtain ⟨e0, e1, e2, e3, e4, e5, e6, e7, e8, e9⟩ := idx3 ⟨(i 0).val / 2000, hlt⟩
  have e8' : win3_4.index ⟨(i 0).val / 2000, hlt⟩ (0 : Fin 2) = (i 0).val / 2000 := e8
  refine ⟨⟨(i 0).val / 2000, hlt⟩, flush3_4 _, ?_⟩
  rw [mem_blk3]
  intro a
  match a with
  | ⟨0, _⟩ => show win3_4.index ⟨(i 0).val / 2000, hlt⟩ (0 : Fin 2) * 2000 ≤ (i 0).val ∧ (i 0).val < win3_4.index ⟨(i 0).val / 2000, hlt⟩ (0 : Fin 2) * 2000 + 2000; omega
  | ⟨1, _⟩ => show win3_4.index ⟨(i 0).val / 2000, hlt⟩ (1 : Fin 2) * 64 ≤ (i 1).val ∧ (i 1).val < win3_4.index ⟨(i 0).val / 2000, hlt⟩ (1 : Fin 2) * 64 + 64; omega

/-- REGION 3: after the region the output array is the whole-array expression of the four input arrays. -/
theorem arr3 : (Gen.dat3 (F := Ideal) V c).arrAt 4 cfg3.N
    = maximumf (addf (addf (V c (Pipeline.arrRef spec3 0)) (mulf (V c (Pipeline.arrRef spec3 1)) (broadcastInDim Cert.ReferenceIdeal.S50000x64 ![0, 1] Cert.ReferenceIdeal.Gen.bcast_S50000x1_S50000x64_0_1 (V c (Pipeline.arrRef spec3 2))))) (broadcastInDim Cert.ReferenceIdeal.S50000x64 ![0, 1] Cert.ReferenceIdeal.Gen.bcast_S1x64_S50000x64_0_1 (V c (Pipeline.arrRef spec3 3)))) (broadcastInDim Cert.ReferenceIdeal.S50000x64 ![] Cert.ReferenceIdeal.Gen.bcast_S_S50000x64 (constant (F := Ideal) Cert.ReferenceIdeal.S_ .f32 0x00000000#32)) :=
  (dat3 V c).arrAt_eq_of_cover 4
    (combRelu (V c (Pipeline.arrRef spec3 0)) (V c (Pipeline.arrRef spec3 1)) (V c (Pipeline.arrRef spec3 2)) (V c (Pipeline.arrRef spec3 3)))
    (fun t _ => flushed3 V c t) cover3

end Region3

/-! ## The "combine" region (no relu) -/

/-- The "combine" payload at row p, column q of a block. -/
theorem pay_at (x0 x1 : Vec Ideal S2000x64 .f32) (x2 : Vec Ideal S2000x1 .f32) (x3 : Vec Ideal S1x64 .f32)
    (p : Fin 2000) (q : Fin 64) :
    k5_pay1 x0 x1 x2 x3 (ix2 p q)
      = x0 (ix2 p q) + x1 (ix2 p q) * x2 (ix2 p (0 : Fin 1)) + x3 (ix2 (0 : Fin 1) q) := by
  unfold k5_pay1
  simp only [shapeCast_self]
  rw [addf_apply, addf_apply, mulf_apply]
  rw [broadcastTo_apply x2 broadcasts_S2000x1_S2000x64 (ix2 p q) (ix2 p (0 : Fin 1)) (fun a => by
      match a with
      | ⟨0, _⟩ => rfl
      | ⟨1, _⟩ => rfl),
    broadcastTo_apply x3 broadcasts_S1x64_S2000x64 (ix2 p q) (ix2 (0 : Fin 1) q) (fun a => by
      match a with
      | ⟨0, _⟩ => rfl
      | ⟨1, _⟩ => rfl)]

/-- The "combine" region's result as one expression of its four input arrays. -/
def comb (a0 a1 : Vec Ideal S50000x64 .f32) (a2 : Vec Ideal S50000x1 .f32) (a3 : Vec Ideal S1x64 .f32) :
    Vec Ideal S50000x64 .f32 :=
  addf (F := Ideal) (φ := .f32) (addf a0 (mulf a1 (broadcastInDim Cert.ReferenceIdeal.S50000x64 ![0, 1] Cert.ReferenceIdeal.Gen.bcast_S50000x1_S50000x64_0_1 a2)))
      (broadcastInDim Cert.ReferenceIdeal.S50000x64 ![0, 1] Cert.ReferenceIdeal.Gen.bcast_S1x64_S50000x64_0_1 a3)

/-- At row r, column q it is a0(r,q) + a1(r,q) * a2(r,0) + a3(0,q). -/
theorem comb_at (a0 a1 : Vec Ideal S50000x64 .f32) (a2 : Vec Ideal S50000x1 .f32) (a3 : Vec Ideal S1x64 .f32)
    (r : Fin 50000) (q : Fin 64) :
    comb a0 a1 a2 a3 (ix2 r q)
      = a0 (ix2 r q) + a1 (ix2 r q) * a2 (ix2 r (0 : Fin 1)) + a3 (ix2 (0 : Fin 1) q) := by
  unfold comb
  rw [addf_apply, addf_apply, mulf_apply]
  rw [broadcastInDim_apply _ Cert.ReferenceIdeal.Gen.bcast_S50000x1_S50000x64_0_1 a2 (ix2 r q) (ix2 r (0 : Fin 1)) (fun a => by
      match a with
      | ⟨0, _⟩ => rfl
      | ⟨1, _⟩ => rfl),
    broadcastInDim_apply _ Cert.ReferenceIdeal.Gen.bcast_S1x64_S50000x64_0_1 a3 (ix2 r q) (ix2 (0 : Fin 1) q) (fun a => by
      match a with
      | ⟨0, _⟩ => rfl
      | ⟨1, _⟩ => rfl)]

/-! ## Region 5: blocks, write-backs, the cover -/

section Region5
variable (V : (c : Dev nD) → (b : Ref sig .tc) → Buf (Elt Ideal) ((c : Thread nD τ).loc b)) (c : Dev nD)

/-- The block index maps over the 25 grid points: windows 0, 1, 2 and the output sit at block row t, column
    block 0; window 3 is the whole bias row at every point. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Element (p, q) of block t of a [50000,64] array windowed by rows is element (2000 t + p, q) of the array. -/
theorem blk5_0_at (A : Vec Ideal S50000x64 .f32) (t : Fin cfg5.N) (p : Fin 2000) (q : Fin 64) (h : t.val * 2000 + p.val < 50000) :
    ((cfg5.win 0).blk t).view.read (Elt Ideal) A (ix2 p q) = A (ix2 (⟨t.val * 2000 + p.val, h⟩ : Fin 50000) q) := by
  obtain ⟨e0, e1, e2, e3, e4, e5, e6, e7, e8, e9⟩ := idx5 t
  show A (((cfg5.win 0).blk t).view.emb (ix2 p q)) = _
  congr 1
  funext a; apply Fin.ext
  match a with
  | ⟨0, _⟩ => show win5_0.index t (0 : Fin 2) * 2000 + 1 * p.val = t.val * 2000 + p.val; omega
  | ⟨1, _⟩ => show win5_0.index t (1 : Fin 2) * 64 + 1 * q.val = q.val; omega

theorem blk5_1_at (A : Vec Ideal S50000x64 .f32) (t : Fin cfg5.N) (p : Fin 2000) (q : Fin 64) (h : t.val * 2000 + p.val < 50000) :
    ((cfg5.win 1).blk t).view.read (Elt Ideal) A (ix2 p q) = A (ix2 (⟨t.val * 2000 + p.val, h⟩ : Fin 50000) q) := by
  obtain ⟨e0, e1, e2, e3, e4, e5, e6, e7, e8, e9⟩ := idx5 t
  show A (((cfg5.win 1).blk t).view.emb (ix2 p q)) = _
  congr 1
  funext a; apply Fin.ext
  match a with
  | ⟨0, _⟩ => show win5_1.index t (0 : Fin 2) * 2000 + 1 * p.val = t.val * 2000 + p.val; omega
  | ⟨1, _⟩ => show win5_1.index t (1 : Fin 2) * 64 + 1 * q.val = q.val; omega

/-- Element (p, 0) of block t of the [50000,1] column is element (2000 t + p, 0) of the column. -/
theorem blk5_2_at (A : Vec Ideal S50000x1 .f32) (t : Fin cfg5.N) (p : Fin 2000) (h : t.val * 2000 + p.val < 50000) :
    ((cfg5.win 2).blk t).view.read (Elt Ideal) A (ix2 p (0 : Fin 1)) = A (ix2 (⟨t.val * 2000 + p.val, h⟩ : Fin 50000) (0 : Fin 1)) := by
  obtain ⟨e0, e1, e2, e3, e4, e5, e6, e7, e8, e9⟩ := idx5 t
  show A (((cfg5.win 2).blk t).view.emb (ix2 p (0 : Fin 1))) = _
  congr 1
  funext a; apply Fin.ext
  match a with
  | ⟨0, _⟩ => show win5_2.index t (0 : Fin 2) * 2000 + 1 * p.val = t.val * 2000 + p.val; omega
  | ⟨1, _⟩ => show win5_2.index t (1 : Fin 2) * 1 + 1 * 0 = 0; omega

/-- The bias row's one block is the row itself, at every point. -/
theorem blk5_3_at (A : Vec Ideal S1x64 .f32) (t : Fin cfg5.N) (q : Fin 64) :
    ((cfg5.win 3).blk t).view.read (Elt Ideal) A (ix2 (0 : Fin 1) q) = A (ix2 (0 : Fin 1) q) := by
  obtain ⟨e0, e1, e2, e3, e4, e5, e6, e7, e8, e9⟩ := idx5 t
  show A (((cfg5.win 3).blk t).view.emb (ix2 (0 : Fin 1) q)) = _
  congr 1
  funext a; apply Fin.ext
  match a with
  | ⟨0, _⟩ => show win5_3.index t (0 : Fin 2) * 1 + 1 * 0 = 0; omega
  | ⟨1, _⟩ => show win5_3.index t (1 : Fin 2) * 64 + 1 * q.val = q.val; omega

theorem blk5_4_at (A : Vec Ideal S50000x64 .f32) (t : Fin cfg5.N) (p : Fin 2000) (q : Fin 64) (h : t.val * 2000 + p.val < 50000) :
    ((cfg5.win 4).blk t).view.read (Elt Ideal) A (ix2 p q) = A (ix2 (⟨t.val * 2000 + p.val, h⟩ : Fin 50000) q) := by
  obtain ⟨e0, e1, e2, e3, e4, e5, e6, e7, e8, e9⟩ := idx5 t
  show A (((cfg5.win 4).blk t).view.emb (ix2 p q)) = _
  congr 1
  funext a; apply Fin.ext
  match a with
  | ⟨0, _⟩ => show win5_4.index t (0 : Fin 2) * 2000 + 1 * p.val = t.val * 2000 + p.val; omega
  | ⟨1, _⟩ => show win5_4.index t (1 : Fin 2) * 64 + 1 * q.val = q.val; omega

/-- What point t writes back is the payload of the four input blocks at t. -/
theorem flushed5_pay (t : Fin cfg5.N) :
    (dat5 (F := Ideal) V c).flushed 4 t = k5_pay1 (iblk5 V c 0 t) (iblk5 V c 1 t) (iblk5 V c 2 t) (iblk5 V c 3 t) := by
  show (cfg5.win 4).cut (grid5.coords t) ((dat5 V c).after 4 t) = _
  rw [after5_4]
  unfold out5_4
  rw [View.canon_unit_zero hz]
  simp only [View.ld_unit_zero (S := S2000x64) hz, View.ld_unit_zero (S := S2000x1) hz, View.ld_unit_zero (S := S1x64) hz]
  rfl

/-- So it is block t of the whole-array expression of the four input arrays. -/
theorem flushed5 (t : Fin cfg5.N) :
    (dat5 (F := Ideal) V c).flushed 4 t = ((cfg5.win 4).blk t).view.read (Elt Ideal)
      (comb (V c (Pipeline.arrRef spec5 0)) (V c (Pipeline.arrRef spec5 1)) (V c (Pipeline.arrRef spec5 2)) (V c (Pipeline.arrRef spec5 3))) := by
  refine (flushed5_pay V c t).trans ?_
  funext j
  obtain ⟨p, q, rfl⟩ : ∃ (p : Fin 2000) (q : Fin 64), j = ix2 p q := ⟨j 0, j 1, eq_ix2 j⟩
  have hN : cfg5.N = 25 := N_5
  have ht : t.val < 25 := Nat.lt_of_lt_of_eq t.isLt hN
  have hp : p.val < 2000 := p.isLt
  have h : t.val * 2000 + p.val < 50000 := by omega
  refine (pay_at _ _ _ _ p q).trans ?_
  refine Eq.trans ?_ (blk5_4_at _ t p q h).symm
  rw [comb_at]
  refine congrArg₂ (fun u v : Ideal .f32 => u + v)
    (congrArg₂ (fun u v : Ideal .f32 => u + v) ?_ (congrArg₂ (fun u v : Ideal .f32 => u * v) ?_ ?_)) ?_
  · exact blk5_0_at _ t p q h
  · exact blk5_1_at _ t p q h
  · exact blk5_2_at _ t p h
  · exact blk5_3_at _ t q

/-- An index of the output array is in point t's block iff each coordinate is in the block's range on its axis. -/
theorem mem_blk5 (t : Fin cfg5.N) (i : S50000x64.Idx) :
    i ∈ ((cfg5.win 4).blk t).view.set ↔ ∀ a : Fin 2, win5_4.index t a * S2000x64.size a ≤ (i a).val ∧ (i a).val < win5_4.index t a * S2000x64.size a + S2000x64.size a := by
  show i ∈ ((View.whole main_v88).slice (win5_4.rect t)).set ↔ _
  rw [View.set_slice_whole, Rect.mem_set_unit]
  exact Iff.rfl

/-- Row r of the output array is in the block of point r / 2000. -/
theorem cover5 (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  have hN : cfg5.N = 25 := N_5
  have hlt : (i 0).val / 2000 < cfg5.N := by rw [hN]; omega
  obtain ⟨e0, e1, e2, e3, e4, e5, e6, e7, e8, e9⟩ := idx5 ⟨(i 0).val / 2000, hlt⟩
  have e8' : win5_4.index ⟨(i 0).val / 2000, hlt⟩ (0 : Fin 2) = (i 0).val / 2000 := e8
  refine ⟨⟨(i 0).val / 2000, hlt⟩, flush5_4 _, ?_⟩
  rw [mem_blk5]
  intro a
  match a with
  | ⟨0, _⟩ => show win5_4.index ⟨(i 0).val / 2000, hlt⟩ (0 : Fin 2) * 2000 ≤ (i 0).val ∧ (i 0).val < win5_4.index ⟨(i 0).val / 2000, hlt⟩ (0 : Fin 2) * 2000 + 2000; omega
  | ⟨1, _⟩ => show win5_4.index ⟨(i 0).val / 2000, hlt⟩ (1 : Fin 2) * 64 ≤ (i 1).val ∧ (i 1).val < win5_4.index ⟨(i 0).val / 2000, hlt⟩ (1 : Fin 2) * 64 + 64; omega

/-- REGION 5: after the region the output array is the whole-array expression of the four input arrays. -/
theorem arr5 : (Gen.dat5 (F := Ideal) V c).arrAt 4 cfg5.N
    = addf (F := Ideal) (φ := .f32) (addf (V c (Pipeline.arrRef spec5 0)) (mulf (V c (Pipeline.arrRef spec5 1)) (broadcastInDim Cert.ReferenceIdeal.S50000x64 ![0, 1] Cert.ReferenceIdeal.Gen.bcast_S50000x1_S50000x64_0_1 (V c (Pipeline.arrRef spec5 2))))) (broadcastInDim Cert.ReferenceIdeal.S50000x64 ![0, 1] Cert.ReferenceIdeal.Gen.bcast_S1x64_S50000x64_0_1 (V c (Pipeline.arrRef spec5 3))) :=
  (dat5 V c).arrAt_eq_of_cover 4
    (comb (V c (Pipeline.arrRef spec5 0)) (V c (Pipeline.arrRef spec5 1)) (V c (Pipeline.arrRef spec5 2)) (V c (Pipeline.arrRef spec5 3)))
    (fun t _ => flushed5 V c t) cover5

end Region5

end Cert.KernelIdeal.RegionCombine

end
-- ==== Proof.KernelValue.lean ====
/-
  What the idealized kernel's result buffer holds at the end of the run, as the reference's own stage functions of the
  launch arguments. The run's last boundary contents are a fold through seven host stretches and seven regions; walking it
  forward, every buffer a later step reads is named by the reference's stage that computes the same array: the
  projections h·W (regions 0, 2, 4) are the reference's dot_general, the combines agg + h·d⁻¹ + b with or without the
  rectifier (regions 1, 3, 5) its elementwise chain, the output layer pooled·Wl + bl (region 6) its last two operations,
  and the host stretches between them are the reference's own operations on equal operands.
-/
import proofs.«130858_j4011499454822_2_alg».proof.Proof.HostStretch
import proofs.«130858_j4011499454822_2_alg».proof.Proof.RegionMatmul
import proofs.«130858_j4011499454822_2_alg».proof.Proof.RegionCombine

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.Read Cert.KernelIdeal.Stretch

variable (m : (ℓ : Loc nD τ sig) → Buf (Elt Ideal) ℓ) (ρ : Dev nD → PrngReg) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)

/-! ## Up to region 0's entry -/

theorem e1_v1 : W1 m ρ c (Proc.devRef .tc main_v1) = val_main_v1 (F := Ideal) (a1 m c) := s0_v1 (W0 m ρ c)
theorem e1_v3 : W1 m ρ c (Proc.devRef .tc main_v3) = val_main_v3 (F := Ideal) (a1 m c) := s0_v3 (W0 m ρ c)
theorem e1_v16 : W1 m ρ c (Proc.devRef .tc main_v16) = val_main_v16 (F := Ideal) (a0 m c) (a1 m c) (a3 m c) := s0_v16 (W0 m ρ c)
theorem e1_v17 : W1 m ρ c (Proc.devRef .tc main_v17) = val_main_v17 (F := Ideal) (a2 m c) := s0_v17 (W0 m ρ c)
theorem e1_arg0 : W1 m ρ c (Proc.devRef .tc main_arg0) = (a0 m c) := keep0_arg0 (W0 m ρ c)
theorem e1_arg4 : W1 m ρ c (Proc.devRef .tc main_arg4) = (a4 m c) := keep0_arg4 (W0 m ρ c)
theorem e1_arg5 : W1 m ρ c (Proc.devRef .tc main_arg5) = (a5 m c) := keep0_arg5 (W0 m ρ c)
theorem e1_arg6 : W1 m ρ c (Proc.devRef .tc main_arg6) = (a6 m c) := keep0_arg6 (W0 m ρ c)
theorem e1_arg7 : W1 m ρ c (Proc.devRef .tc main_arg7) = (a7 m c) := keep0_arg7 (W0 m ρ c)
theorem e1_arg8 : W1 m ρ c (Proc.devRef .tc main_arg8) = (a8 m c) := keep0_arg8 (W0 m ρ c)
theorem e1_arg9 : W1 m ρ c (Proc.devRef .tc main_arg9) = (a9 m c) := keep0_arg9 (W0 m ρ c)
theorem e1_arg10 : W1 m ρ c (Proc.devRef .tc main_arg10) = (a10 m c) := keep0_arg10 (W0 m ρ c)
theorem e1_arg11 : W1 m ρ c (Proc.devRef .tc main_arg11) = (a11 m c) := keep0_arg11 (W0 m ρ c)
theorem e1_arg12 : W1 m ρ c (Proc.devRef .tc main_arg12) = (a12 m c) := keep0_arg12 (W0 m ρ c)
theorem e2_v18 : W2 m ρ c (Proc.devRef .tc main_v18) = val_main_v18 (F := Ideal) (a0 m c) (a1 m c) (a2 m c) (a3 m c) := by
  show StableHlo.after hostOps0_1 (W1 m ρ c) (Proc.devRef .tc main_v18) = _
  rw [s01_v18, e1_v17 m ρ c, e1_v16 m ρ c, e1_arg0 m ρ c]; rfl
theorem e2_v1 : W2 m ρ c (Proc.devRef .tc main_v1) = val_main_v1 (F := Ideal) (a1 m c) :=
  (keep01_v1 (W1 m ρ c)).trans (e1_v1 m ρ c)
theorem e2_v3 : W2 m ρ c (Proc.devRef .tc main_v3) = val_main_v3 (F := Ideal) (a1 m c) :=
  (keep01_v3 (W1 m ρ c)).trans (e1_v3 m ρ c)
theorem e2_arg4 : W2 m ρ c (Proc.devRef .tc main_arg4) = (a4 m c) :=
  (keep01_arg4 (W1 m ρ c)).trans (e1_arg4 m ρ c)
theorem e2_arg5 : W2 m ρ c (Proc.devRef .tc main_arg5) = (a5 m c) :=
  (keep01_arg5 (W1 m ρ c)).trans (e1_arg5 m ρ c)
theorem e2_arg6 : W2 m ρ c (Proc.devRef .tc main_arg6) = (a6 m c) :=
  (keep01_arg6 (W1 m ρ c)).trans (e1_arg6 m ρ c)
theorem e2_arg7 : W2 m ρ c (Proc.devRef .tc main_arg7) = (a7 m c) :=
  (keep01_arg7 (W1 m ρ c)).trans (e1_arg7 m ρ c)
theorem e2_arg8 : W2 m ρ c (Proc.devRef .tc main_arg8) = (a8 m c) :=
  (keep01_arg8 (W1 m ρ c)).trans (e1_arg8 m ρ c)
theorem e2_arg9 : W2 m ρ c (Proc.devRef .tc main_arg9) = (a9 m c) :=
  (keep01_arg9 (W1 m ρ c)).trans (e1_arg9 m ρ c)
theorem e2_arg10 : W2 m ρ c (Proc.devRef .tc main_arg10) = (a10 m c) :=
  (keep01_arg10 (W1 m ρ c)).trans (e1_arg10 m ρ c)
theorem e2_arg11 : W2 m ρ c (Proc.devRef .tc main_arg11) = (a11 m c) :=
  (keep01_arg11 (W1 m ρ c)).trans (e1_arg11 m ρ c)
theorem e2_arg12 : W2 m ρ c (Proc.devRef .tc main_arg12) = (a12 m c) :=
  (keep01_arg12 (W1 m ρ c)).trans (e1_arg12 m ρ c)
theorem e3_v42 : W3 m ρ c (Proc.devRef .tc main_v42) = val_main_v42 (F := Ideal) (a1 m c) := s02_v42 (W2 m ρ c) (a1 m c) (e2_v3 m ρ c)
theorem e3_v43 : W3 m ρ c (Proc.devRef .tc main_v43) = val_main_v51 (F := Ideal) (a1 m c) := s02_v43 (W2 m ρ c) (a1 m c) (e2_v1 m ρ c) (e2_v3 m ρ c)
theorem e3_v18 : W3 m ρ c (Proc.devRef .tc main_v18) = val_main_v18 (F := Ideal) (a0 m c) (a1 m c) (a2 m c) (a3 m c) :=
  (keep02_v18 (W2 m ρ c)).trans (e2_v18 m ρ c)
theorem e3_v1 : W3 m ρ c (Proc.devRef .tc main_v1) = val_main_v1 (F := Ideal) (a1 m c) :=
  (keep02_v1 (W2 m ρ c)).trans (e2_v1 m ρ c)
theorem e3_v3 : W3 m ρ c (Proc.devRef .tc main_v3) = val_main_v3 (F := Ideal) (a1 m c) :=
  (keep02_v3 (W2 m ρ c)).trans (e2_v3 m ρ c)
theorem e3_arg4 : W3 m ρ c (Proc.devRef .tc main_arg4) = (a4 m c) :=
  (keep02_arg4 (W2 m ρ c)).trans (e2_arg4 m ρ c)
theorem e3_arg5 : W3 m ρ c (Proc.devRef .tc main_arg5) = (a5 m c) :=
  (keep02_arg5 (W2 m ρ c)).trans (e2_arg5 m ρ c)
theorem e3_arg6 : W3 m ρ c (Proc.devRef .tc main_arg6) = (a6 m c) :=
  (keep02_arg6 (W2 m ρ c)).trans (e2_arg6 m ρ c)
theorem e3_arg7 : W3 m ρ c (Proc.devRef .tc main_arg7) = (a7 m c) :=
  (keep02_arg7 (W2 m ρ c)).trans (e2_arg7 m ρ c)
theorem e3_arg8 : W3 m ρ c (Proc.devRef .tc main_arg8) = (a8 m c) :=
  (keep02_arg8 (W2 m ρ c)).trans (e2_arg8 m ρ c)
theorem e3_arg9 : W3 m ρ c (Proc.devRef .tc main_arg9) = (a9 m c) :=
  (keep02_arg9 (W2 m ρ c)).trans (e2_arg9 m ρ c)
theorem e3_arg10 : W3 m ρ c (Proc.devRef .tc main_arg10) = (a10 m c) :=
  (keep02_arg10 (W2 m ρ c)).trans (e2_arg10 m ρ c)
theorem e3_arg11 : W3 m ρ c (Proc.devRef .tc main_arg11) = (a11 m c) :=
  (keep02_arg11 (W2 m ρ c)).trans (e2_arg11 m ρ c)
theorem e3_arg12 : W3 m ρ c (Proc.devRef .tc main_arg12) = (a12 m c) :=
  (keep02_arg12 (W2 m ρ c)).trans (e2_arg12 m ρ c)

/-! ## Region 0: the first projection -/

set_option maxHeartbeats 2000000 in
theorem e4_v44 : W4 m ρ c (Proc.devRef .tc main_v44) = val_main_v43 (F := Ideal) (a0 m c) (a1 m c) (a2 m c) (a3 m c) (a5 m c) := by
  have h := W4_arr m ρ c 2
  have h0 : V3 m ρ c (Pipeline.arrRef spec0 0) = val_main_v18 (F := Ideal) (a0 m c) (a1 m c) (a2 m c) (a3 m c) := e3_v18 m ρ c
  have h1 : V3 m ρ c (Pipeline.arrRef spec0 1) = (a5 m c) := e3_arg5 m ρ c
  refine h.trans ?_
  rw [RegionMatmul.arr0 (V3 m ρ) c, h0, h1]; rfl
theorem e4_v1 : W4 m ρ c (Proc.devRef .tc main_v1) = val_main_v1 (F := Ideal) (a1 m c) :=
  (W4_of_ne m ρ c main_v1 (by decide)).trans (e3_v1 m ρ c)
theorem e4_v3 : W4 m ρ c (Proc.devRef .tc main_v3) = val_main_v3 (F := Ideal) (a1 m c) :=
  (W4_of_ne m ρ c main_v3 (by decide)).trans (e3_v3 m ρ c)
theorem e4_v43 : W4 m ρ c (Proc.devRef .tc main_v43) = val_main_v51 (F := Ideal) (a1 m c) :=
  (W4_of_ne m ρ c main_v43 (by decide)).trans (e3_v43 m ρ c)
theorem e4_v42 : W4 m ρ c (Proc.devRef .tc main_v42) = val_main_v42 (F := Ideal) (a1 m c) :=
  (W4_of_ne m ρ c main_v42 (by decide)).trans (e3_v42 m ρ c)
theorem e4_arg4 : W4 m ρ c (Proc.devRef .tc main_arg4) = (a4 m c) :=
  (W4_of_ne m ρ c main_arg4 (by decide)).trans (e3_arg4 m ρ c)
theorem e4_arg6 : W4 m ρ c (Proc.devRef .tc main_arg6) = (a6 m c) :=
  (W4_of_ne m ρ c main_arg6 (by decide)).trans (e3_arg6 m ρ c)
theorem e4_arg7 : W4 m ρ c (Proc.devRef .tc main_arg7) = (a7 m c) :=
  (W4_of_ne m ρ c main_arg7 (by decide)).trans (e3_arg7 m ρ c)
theorem e4_arg8 : W4 m ρ c (Proc.devRef .tc main_arg8) = (a8 m c) :=
  (W4_of_ne m ρ c main_arg8 (by decide)).trans (e3_arg8 m ρ c)
theorem e4_arg9 : W4 m ρ c (Proc.devRef .tc main_arg9) = (a9 m c) :=
  (W4_of_ne m ρ c main_arg9 (by decide)).trans (e3_arg9 m ρ c)
theorem e4_arg10 : W4 m ρ c (Proc.devRef .tc main_arg10) = (a10 m c) :=
  (W4_of_ne m ρ c main_arg10 (by decide)).trans (e3_arg10 m ρ c)
theorem e4_arg11 : W4 m ρ c (Proc.devRef .tc main_arg11) = (a11 m c) :=
  (W4_of_ne m ρ c main_arg11 (by decide)).trans (e3_arg11 m ρ c)
theorem e4_arg12 : W4 m ρ c (Proc.devRef .tc main_arg12) = (a12 m c) :=
  (W4_of_ne m ρ c main_arg12 (by decide)).trans (e3_arg12 m ρ c)

/-! ## The first aggregation -/

theorem e5_v56 : W5 m ρ c (Proc.devRef .tc main_v56) = val_main_v56 (F := Ideal) (a0 m c) (a1 m c) (a2 m c) (a3 m c) (a5 m c) :=
  s1_v56 (W4 m ρ c) (a0 m c) (a1 m c) (a2 m c) (a3 m c) (a5 m c) (e4_v44 m ρ c) (e4_v1 m ρ c) (e4_v3 m ρ c) (e4_v43 m ρ c)
theorem e5_v57 : W5 m ρ c (Proc.devRef .tc main_v57) = val_main_v60 (F := Ideal) (a6 m c) := by
  show StableHlo.after hostOps1 (W4 m ρ c) (Proc.devRef .tc main_v57) = _
  rw [s1_v57, e4_arg6 m ρ c]
theorem e5_v44 : W5 m ρ c (Proc.devRef .tc main_v44) = val_main_v43 (F := Ideal) (a0 m c) (a1 m c) (a2 m c) (a3 m c) (a5 m c) :=
  (keep1_v44 (W4 m ρ c)).trans (e4_v44 m ρ c)
theorem e5_v42 : W5 m ρ c (Proc.devRef .tc main_v42) = val_main_v42 (F := Ideal) (a1 m c) :=
  (keep1_v42 (W4 m ρ c)).trans (e4_v42 m ρ c)
theorem e5_v1 : W5 m ρ c (Proc.devRef .tc main_v1) = val_main_v1 (F := Ideal) (a1 m c) :=
  (keep1_v1 (W4 m ρ c)).trans (e4_v1 m ρ c)
theorem e5_v3 : W5 m ρ c (Proc.devRef .tc main_v3) = val_main_v3 (F := Ideal) (a1 m c) :=
  (keep1_v3 (W4 m ρ c)).trans (e4_v3 m ρ c)
theorem e5_v43 : W5 m ρ c (Proc.devRef .tc main_v43) = val_main_v51 (F := Ideal) (a1 m c) :=
  (keep1_v43 (W4 m ρ c)).trans (e4_v43 m ρ c)
theorem e5_arg4 : W5 m ρ c (Proc.devRef .tc main_arg4) = (a4 m c) :=
  (keep1_arg4 (W4 m ρ c)).trans (e4_arg4 m ρ c)
theorem e5_arg7 : W5 m ρ c (Proc.devRef .tc main_arg7) = (a7 m c) :=
  (keep1_arg7 (W4 m ρ c)).trans (e4_arg7 m ρ c)
theorem e5_arg8 : W5 m ρ c (Proc.devRef .tc main_arg8) = (a8 m c) :=
  (keep1_arg8 (W4 m ρ c)).trans (e4_arg8 m ρ c)
theorem e5_arg9 : W5 m ρ c (Proc.devRef .tc main_arg9) = (a9 m c) :=
  (keep1_arg9 (W4 m ρ c)).trans (e4_arg9 m ρ c)
theorem e5_arg10 : W5 m ρ c (Proc.devRef .tc main_arg10) = (a10 m c) :=
  (keep1_arg10 (W4 m ρ c)).trans (e4_arg10 m ρ c)
theorem e5_arg11 : W5 m ρ c (Proc.devRef .tc main_arg11) = (a11 m c) :=
  (keep1_arg11 (W4 m ρ c)).trans (e4_arg11 m ρ c)
theorem e5_arg12 : W5 m ρ c (Proc.devRef .tc main_arg12) = (a12 m c) :=
  (keep1_arg12 (W4 m ρ c)).trans (e4_arg12 m ρ c)

/-! ## Region 1: the first combine, rectified -/

set_option maxHeartbeats 2000000 in
theorem e6_v58 : W6 m ρ c (Proc.devRef .tc main_v58) = val_main_v63 (F := Ideal) (a0 m c) (a1 m c) (a2 m c) (a3 m c) (a5 m c) (a6 m c) := by
  have h := W6_arr m ρ c 4
  have h0 : V5 m ρ c (Pipeline.arrRef spec1 0) = val_main_v56 (F := Ideal) (a0 m c) (a1 m c) (a2 m c) (a3 m c) (a5 m c) := e5_v56 m ρ c
  have h1 : V5 m ρ c (Pipeline.arrRef spec1 1) = val_main_v43 (F := Ideal) (a0 m c) (a1 m c) (a2 m c) (a3 m c) (a5 m c) := e5_v44 m ρ c
  have h2 : V5 m ρ c (Pipeline.arrRef spec1 2) = val_main_v42 (F := Ideal) (a1 m c) := e5_v42 m ρ c
  have h3 : V5 m ρ c (Pipeline.arrRef spec1 3) = val_main_v60 (F := Ideal) (a6 m c) := e5_v57 m ρ c
  refine h.trans ?_
  rw [RegionCombine.arr1 (V5 m ρ) c, h0, h1, h2, h3]; rfl
theorem e6_v1 : W6 m ρ c (Proc.devRef .tc main_v1) = val_main_v1 (F := Ideal) (a1 m c) :=
  (W6_of_ne m ρ c main_v1 (by decide)).trans (e5_v1 m ρ c)
theorem e6_v3 : W6 m ρ c (Proc.devRef .tc main_v3) = val_main_v3 (F := Ideal) (a1 m c) :=
  (W6_of_ne m ρ c main_v3 (by decide)).trans (e5_v3 m ρ c)
theorem e6_v43 : W6 m ρ c (Proc.devRef .tc main_v43) = val_main_v51 (F := Ideal) (a1 m c) :=
  (W6_of_ne m ρ c main_v43 (by decide)).trans (e5_v43 m ρ c)
theorem e6_v42 : W6 m ρ c (Proc.devRef .tc main_v42) = val_main_v42 (F := Ideal) (a1 m c) :=
  ((W6_arr m ρ c 2).trans (((dat1 (V5 m ρ) c).arrAt_in 2 rfl _).trans (A_eq1 (V5 m ρ) c 2))).trans (e5_v42 m ρ c)
theorem e6_arg4 : W6 m ρ c (Proc.devRef .tc main_arg4) = (a4 m c) :=
  (W6_of_ne m ρ c main_arg4 (by decide)).trans (e5_arg4 m ρ c)
theorem e6_arg7 : W6 m ρ c (Proc.devRef .tc main_arg7) = (a7 m c) :=
  (W6_of_ne m ρ c main_arg7 (by decide)).trans (e5_arg7 m ρ c)
theorem e6_arg8 : W6 m ρ c (Proc.devRef .tc main_arg8) = (a8 m c) :=
  (W6_of_ne m ρ c main_arg8 (by decide)).trans (e5_arg8 m ρ c)
theorem e6_arg9 : W6 m ρ c (Proc.devRef .tc main_arg9) = (a9 m c) :=
  (W6_of_ne m ρ c main_arg9 (by decide)).trans (e5_arg9 m ρ c)
theorem e6_arg10 : W6 m ρ c (Proc.devRef .tc main_arg10) = (a10 m c) :=
  (W6_of_ne m ρ c main_arg10 (by decide)).trans (e5_arg10 m ρ c)
theorem e6_arg11 : W6 m ρ c (Proc.devRef .tc main_arg11) = (a11 m c) :=
  (W6_of_ne m ρ c main_arg11 (by decide)).trans (e5_arg11 m ρ c)
theorem e6_arg12 : W6 m ρ c (Proc.devRef .tc main_arg12) = (a12 m c) :=
  (W6_of_ne m ρ c main_arg12 (by decide)).trans (e5_arg12 m ρ c)

/-! ## Region 2: the second projection -/

set_option maxHeartbeats 2000000 in
theorem e7_v59 : W7 m ρ c (Proc.devRef .tc main_v59) = val_main_v64 (F := Ideal) (a0 m c) (a1 m c) (a2 m c) (a3 m c) (a5 m c) (a6 m c) (a7 m c) := by
  have h := W7_arr m ρ c 2
  have h0 : V6 m ρ c (Pipeline.arrRef spec2 0) = val_main_v63 (F := Ideal) (a0 m c) (a1 m c) (a2 m c) (a3 m c) (a5 m c) (a6 m c) := e6_v58 m ρ c
  have h1 : V6 m ρ c (Pipeline.arrRef spec2 1) = (a7 m c) := e6_arg7 m ρ c
  refine h.trans ?_
  rw [RegionMatmul.arr2 (V6 m ρ) c, h0, h1]; rfl
theorem e7_v1 : W7 m ρ c (Proc.devRef .tc main_v1) = val_main_v1 (F := Ideal) (a1 m c) :=
  (W7_of_ne m ρ c main_v1 (by decide)).trans (e6_v1 m ρ c)
theorem e7_v3 : W7 m ρ c (Proc.devRef .tc main_v3) = val_main_v3 (F := Ideal) (a1 m c) :=
  (W7_of_ne m ρ c main_v3 (by decide)).trans (e6_v3 m ρ c)
theorem e7_v43 : W7 m ρ c (Proc.devRef .tc main_v43) = val_main_v51 (F := Ideal) (a1 m c) :=
  (W7_of_ne m ρ c main_v43 (by decide)).trans (e6_v43 m ρ c)
theorem e7_v42 : W7 m ρ c (Proc.devRef .tc main_v42) = val_main_v42 (F := Ideal) (a1 m c) :=
  (W7_of_ne m ρ c main_v42 (by decide)).trans (e6_v42 m ρ c)
theorem e7_arg4 : W7 m ρ c (Proc.devRef .tc main_arg4) = (a4 m c) :=
  (W7_of_ne m ρ c main_arg4 (by decide)).trans (e6_arg4 m ρ c)
theorem e7_arg8 : W7 m ρ c (Proc.devRef .tc main_arg8) = (a8 m c) :=
  (W7_of_ne m ρ c main_arg8 (by decide)).trans (e6_arg8 m ρ c)
theorem e7_arg9 : W7 m ρ c (Proc.devRef .tc main_arg9) = (a9 m c) :=
  (W7_of_ne m ρ c main_arg9 (by decide)).trans (e6_arg9 m ρ c)
theorem e7_arg10 : W7 m ρ c (Proc.devRef .tc main_arg10) = (a10 m c) :=
  (W7_of_ne m ρ c main_arg10 (by decide)).trans (e6_arg10 m ρ c)
theorem e7_arg11 : W7 m ρ c (Proc.devRef .tc main_arg11) = (a11 m c) :=
  (W7_of_ne m ρ c main_arg11 (by decide)).trans (e6_arg11 m ρ c)
theorem e7_arg12 : W7 m ρ c (Proc.devRef .tc main_arg12) = (a12 m c) :=
  (W7_of_ne m ρ c main_arg12 (by decide)).trans (e6_arg12 m ρ c)

/-! ## The second aggregation -/

theorem e8_v71 : W8 m ρ c (Proc.devRef .tc main_v71) = val_main_v77 (F := Ideal) (a0 m c) (a1 m c) (a2 m c) (a3 m c) (a5 m c) (a6 m c) (a7 m c) :=
  s3_v71 (W7 m ρ c) (a0 m c) (a1 m c) (a2 m c) (a3 m c) (a5 m c) (a6 m c) (a7 m c) (e7_v59 m ρ c) (e7_v1 m ρ c) (e7_v3 m ρ c) (e7_v43 m ρ c)
theorem e8_v72 : W8 m ρ c (Proc.devRef .tc main_v72) = val_main_v81 (F := Ideal) (a8 m c) := by
  show StableHlo.after hostOps3 (W7 m ρ c) (Proc.devRef .tc main_v72) = _
  rw [s3_v72, e7_arg8 m ρ c]
theorem e8_v59 : W8 m ρ c (Proc.devRef .tc main_v59) = val_main_v64 (F := Ideal) (a0 m c) (a1 m c) (a2 m c) (a3 m c) (a5 m c) (a6 m c) (a7 m c) :=
  (keep3_v59 (W7 m ρ c)).trans (e7_v59 m ρ c)
theorem e8_v42 : W8 m ρ c (Proc.devRef .tc main_v42) = val_main_v42 (F := Ideal) (a1 m c) :=
  (keep3_v42 (W7 m ρ c)).trans (e7_v42 m ρ c)
theorem e8_v1 : W8 m ρ c (Proc.devRef .tc main_v1) = val_main_v1 (F := Ideal) (a1 m c) :=
  (keep3_v1 (W7 m ρ c)).trans (e7_v1 m ρ c)
theorem e8_v3 : W8 m ρ c (Proc.devRef .tc main_v3) = val_main_v3 (F := Ideal) (a1 m c) :=
  (keep3_v3 (W7 m ρ c)).trans (e7_v3 m ρ c)
theorem e8_v43 : W8 m ρ c (Proc.devRef .tc main_v43) = val_main_v51 (F := Ideal) (a1 m c) :=
  (keep3_v43 (W7 m ρ c)).trans (e7_v43 m ρ c)
theorem e8_arg4 : W8 m ρ c (Proc.devRef .tc main_arg4) = (a4 m c) :=
  (keep3_arg4 (W7 m ρ c)).trans (e7_arg4 m ρ c)
theorem e8_arg9 : W8 m ρ c (Proc.devRef .tc main_arg9) = (a9 m c) :=
  (keep3_arg9 (W7 m ρ c)).trans (e7_arg9 m ρ c)
theorem e8_arg10 : W8 m ρ c (Proc.devRef .tc main_arg10) = (a10 m c) :=
  (keep3_arg10 (W7 m ρ c)).trans (e7_arg10 m ρ c)
theorem e8_arg11 : W8 m ρ c (Proc.devRef .tc main_arg11) = (a11 m c) :=
  (keep3_arg11 (W7 m ρ c)).trans (e7_arg11 m ρ c)
theorem e8_arg12 : W8 m ρ c (Proc.devRef .tc main_arg12) = (a12 m c) :=
  (keep3_arg12 (W7 m ρ c)).trans (e7_arg12 m ρ c)

/-! ## Region 3: the second combine, rectified -/

set_option maxHeartbeats 2000000 in
theorem e9_v73 : W9 m ρ c (Proc.devRef .tc main_v73) = val_main_v84 (F := Ideal) (a0 m c) (a1 m c) (a2 m c) (a3 m c) (a5 m c) (a6 m c) (a7 m c) (a8 m c) := by
  have h := W9_arr m ρ c 4
  have h0 : V8 m ρ c (Pipeline.arrRef spec3 0) = val_main_v77 (F := Ideal) (a0 m c) (a1 m c) (a2 m c) (a3 m c) (a5 m c) (a6 m c) (a7 m c) := e8_v71 m ρ c
  have h1 : V8 m ρ c (Pipeline.arrRef spec3 1) = val_main_v64 (F := Ideal) (a0 m c) (a1 m c) (a2 m c) (a3 m c) (a5 m c) (a6 m c) (a7 m c) := e8_v59 m ρ c
  have h2 : V8 m ρ c (Pipeline.arrRef spec3 2) = val_main_v42 (F := Ideal) (a1 m c) := e8_v42 m ρ c
  have h3 : V8 m ρ c (Pipeline.arrRef spec3 3) = val_main_v81 (F := Ideal) (a8 m c) := e8_v72 m ρ c
  refine h.trans ?_
  rw [RegionCombine.arr3 (V8 m ρ) c, h0, h1, h2, h3]; rfl
theorem e9_v1 : W9 m ρ c (Proc.devRef .tc main_v1) = val_main_v1 (F := Ideal) (a1 m c) :=
  (W9_of_ne m ρ c main_v1 (by decide)).trans (e8_v1 m ρ c)
theorem e9_v3 : W9 m ρ c (Proc.devRef .tc main_v3) = val_main_v3 (F := Ideal) (a1 m c) :=
  (W9_of_ne m ρ c main_v3 (by decide)).trans (e8_v3 m ρ c)
theorem e9_v43 : W9 m ρ c (Proc.devRef .tc main_v43) = val_main_v51 (F := Ideal) (a1 m c) :=
  (W9_of_ne m ρ c main_v43 (by decide)).trans (e8_v43 m ρ c)
theorem e9_v42 : W9 m ρ c (Proc.devRef .tc main_v42) = val_main_v42 (F := Ideal) (a1 m c) :=
  ((W9_arr m ρ c 2).trans (((dat3 (V8 m ρ) c).arrAt_in 2 rfl _).trans (A_eq3 (V8 m ρ) c 2))).trans (e8_v42 m ρ c)
theorem e9_arg4 : W9 m ρ c (Proc.devRef .tc main_arg4) = (a4 m c) :=
  (W9_of_ne m ρ c main_arg4 (by decide)).trans (e8_arg4 m ρ c)
theorem e9_arg9 : W9 m ρ c (Proc.devRef .tc main_arg9) = (a9 m c) :=
  (W9_of_ne m ρ c main_arg9 (by decide)).trans (e8_arg9 m ρ c)
theorem e9_arg10 : W9 m ρ c (Proc.devRef .tc main_arg10) = (a10 m c) :=
  (W9_of_ne m ρ c main_arg10 (by decide)).trans (e8_arg10 m ρ c)
theorem e9_arg11 : W9 m ρ c (Proc.devRef .tc main_arg11) = (a11 m c) :=
  (W9_of_ne m ρ c main_arg11 (by decide)).trans (e8_arg11 m ρ c)
theorem e9_arg12 : W9 m ρ c (Proc.devRef .tc main_arg12) = (a12 m c) :=
  (W9_of_ne m ρ c main_arg12 (by decide)).trans (e8_arg12 m ρ c)

/-! ## Region 4: the third projection -/

set_option maxHeartbeats 2000000 in
theorem e10_v74 : W10 m ρ c (Proc.devRef .tc main_v74) = val_main_v85 (F := Ideal) (a0 m c) (a1 m c) (a2 m c) (a3 m c) (a5 m c) (a6 m c) (a7 m c) (a8 m c) (a9 m c) := by
  have h := W10_arr m ρ c 2
  have h0 : V9 m ρ c (Pipeline.arrRef spec4 0) = val_main_v84 (F := Ideal) (a0 m c) (a1 m c) (a2 m c) (a3 m c) (a5 m c) (a6 m c) (a7 m c) (a8 m c) := e9_v73 m ρ c
  have h1 : V9 m ρ c (Pipeline.arrRef spec4 1) = (a9 m c) := e9_arg9 m ρ c
  refine h.trans ?_
  rw [RegionMatmul.arr4 (V9 m ρ) c, h0, h1]; rfl
theorem e10_v1 : W10 m ρ c (Proc.devRef .tc main_v1) = val_main_v1 (F := Ideal) (a1 m c) :=
  (W10_of_ne m ρ c main_v1 (by decide)).trans (e9_v1 m ρ c)
theorem e10_v3 : W10 m ρ c (Proc.devRef .tc main_v3) = val_main_v3 (F := Ideal) (a1 m c) :=
  (W10_of_ne m ρ c main_v3 (by decide)).trans (e9_v3 m ρ c)
theorem e10_v43 : W10 m ρ c (Proc.devRef .tc main_v43) = val_main_v51 (F := Ideal) (a1 m c) :=
  (W10_of_ne m ρ c main_v43 (by decide)).trans (e9_v43 m ρ c)
theorem e10_v42 : W10 m ρ c (Proc.devRef .tc main_v42) = val_main_v42 (F := Ideal) (a1 m c) :=
  (W10_of_ne m ρ c main_v42 (by decide)).trans (e9_v42 m ρ c)
theorem e10_arg4 : W10 m ρ c (Proc.devRef .tc main_arg4) = (a4 m c) :=
  (W10_of_ne m ρ c main_arg4 (by decide)).trans (e9_arg4 m ρ c)
theorem e10_arg10 : W10 m ρ c (Proc.devRef .tc main_arg10) = (a10 m c) :=
  (W10_of_ne m ρ c main_arg10 (by decide)).trans (e9_arg10 m ρ c)
theorem e10_arg11 : W10 m ρ c (Proc.devRef .tc main_arg11) = (a11 m c) :=
  (W10_of_ne m ρ c main_arg11 (by decide)).trans (e9_arg11 m ρ c)
theorem e10_arg12 : W10 m ρ c (Proc.devRef .tc main_arg12) = (a12 m c) :=
  (W10_of_ne m ρ c main_arg12 (by decide)).trans (e9_arg12 m ρ c)

/-! ## The third aggregation -/

theorem e11_v86 : W11 m ρ c (Proc.devRef .tc main_v86) = val_main_v98 (F := Ideal) (a0 m c) (a1 m c) (a2 m c) (a3 m c) (a5 m c) (a6 m c) (a7 m c) (a8 m c) (a9 m c) :=
  s5_v86 (W10 m ρ c) (a0 m c) (a1 m c) (a2 m c) (a3 m c) (a5 m c) (a6 m c) (a7 m c) (a8 m c) (a9 m c) (e10_v74 m ρ c) (e10_v1 m ρ c) (e10_v3 m ρ c) (e10_v43 m ρ c)
theorem e11_v87 : W11 m ρ c (Proc.devRef .tc main_v87) = val_main_v102 (F := Ideal) (a10 m c) := by
  show StableHlo.after hostOps5 (W10 m ρ c) (Proc.devRef .tc main_v87) = _
  rw [s5_v87, e10_arg10 m ρ c]
theorem e11_v74 : W11 m ρ c (Proc.devRef .tc main_v74) = val_main_v85 (F := Ideal) (a0 m c) (a1 m c) (a2 m c) (a3 m c) (a5 m c) (a6 m c) (a7 m c) (a8 m c) (a9 m c) :=
  (keep5_v74 (W10 m ρ c)).trans (e10_v74 m ρ c)
theorem e11_v42 : W11 m ρ c (Proc.devRef .tc main_v42) = val_main_v42 (F := Ideal) (a1 m c) :=
  (keep5_v42 (W10 m ρ c)).trans (e10_v42 m ρ c)
theorem e11_arg4 : W11 m ρ c (Proc.devRef .tc main_arg4) = (a4 m c) :=
  (keep5_arg4 (W10 m ρ c)).trans (e10_arg4 m ρ c)
theorem e11_arg11 : W11 m ρ c (Proc.devRef .tc main_arg11) = (a11 m c) :=
  (keep5_arg11 (W10 m ρ c)).trans (e10_arg11 m ρ c)
theorem e11_arg12 : W11 m ρ c (Proc.devRef .tc main_arg12) = (a12 m c) :=
  (keep5_arg12 (W10 m ρ c)).trans (e10_arg12 m ρ c)

/-! ## Region 5: the third combine, not rectified -/

set_option maxHeartbeats 2000000 in
theorem e12_v88 : W12 m ρ c (Proc.devRef .tc main_v88) = val_main_v104 (F := Ideal) (a0 m c) (a1 m c) (a2 m c) (a3 m c) (a5 m c) (a6 m c) (a7 m c) (a8 m c) (a9 m c) (a10 m c) := by
  have h := W12_arr m ρ c 4
  have h0 : V11 m ρ c (Pipeline.arrRef spec5 0) = val_main_v98 (F := Ideal) (a0 m c) (a1 m c) (a2 m c) (a3 m c) (a5 m c) (a6 m c) (a7 m c) (a8 m c) (a9 m c) := e11_v86 m ρ c
  have h1 : V11 m ρ c (Pipeline.arrRef spec5 1) = val_main_v85 (F := Ideal) (a0 m c) (a1 m c) (a2 m c) (a3 m c) (a5 m c) (a6 m c) (a7 m c) (a8 m c) (a9 m c) := e11_v74 m ρ c
  have h2 : V11 m ρ c (Pipeline.arrRef spec5 2) = val_main_v42 (F := Ideal) (a1 m c) := e11_v42 m ρ c
  have h3 : V11 m ρ c (Pipeline.arrRef spec5 3) = val_main_v102 (F := Ideal) (a10 m c) := e11_v87 m ρ c
  refine h.trans ?_
  rw [RegionCombine.arr5 (V11 m ρ) c, h0, h1, h2, h3]; rfl
theorem e12_arg4 : W12 m ρ c (Proc.devRef .tc main_arg4) = (a4 m c) :=
  (W12_of_ne m ρ c main_arg4 (by decide)).trans (e11_arg4 m ρ c)
theorem e12_arg11 : W12 m ρ c (Proc.devRef .tc main_arg11) = (a11 m c) :=
  (W12_of_ne m ρ c main_arg11 (by decide)).trans (e11_arg11 m ρ c)
theorem e12_arg12 : W12 m ρ c (Proc.devRef .tc main_arg12) = (a12 m c) :=
  (W12_of_ne m ρ c main_arg12 (by decide)).trans (e11_arg12 m ρ c)

/-! ## The mean pool -/

theorem e13_v100 : W13 m ρ c (Proc.devRef .tc main_v100) = val_main_v116 (F := Ideal) (a0 m c) (a1 m c) (a2 m c) (a3 m c) (a4 m c) (a5 m c) (a6 m c) (a7 m c) (a8 m c) (a9 m c) (a10 m c) :=
  s6_v100 (W12 m ρ c) (a0 m c) (a1 m c) (a2 m c) (a3 m c) (a4 m c) (a5 m c) (a6 m c) (a7 m c) (a8 m c) (a9 m c) (a10 m c) (e12_v88 m ρ c) (e12_arg4 m ρ c)
theorem e13_v101 : W13 m ρ c (Proc.devRef .tc main_v101) = val_main_v118 (F := Ideal) (a12 m c) := by
  show StableHlo.after hostOps6 (W12 m ρ c) (Proc.devRef .tc main_v101) = _
  rw [s6_v101, e12_arg12 m ρ c]
theorem e13_arg11 : W13 m ρ c (Proc.devRef .tc main_arg11) = (a11 m c) :=
  (keep6_arg11 (W12 m ρ c)).trans (e12_arg11 m ρ c)

/-! ## Region 6: the output layer -/

set_option maxHeartbeats 2000000 in
theorem e14_v102 : W14 m ρ c (Proc.devRef .tc main_v102) = val_main_v120 (F := Ideal) (a0 m c) (a1 m c) (a2 m c) (a3 m c) (a4 m c) (a5 m c) (a6 m c) (a7 m c) (a8 m c) (a9 m c) (a10 m c) (a11 m c) (a12 m c) := by
  have h := W14_arr m ρ c 3
  have h0 : V13 m ρ c (Pipeline.arrRef spec6 0) = val_main_v116 (F := Ideal) (a0 m c) (a1 m c) (a2 m c) (a3 m c) (a4 m c) (a5 m c) (a6 m c) (a7 m c) (a8 m c) (a9 m c) (a10 m c) := e13_v100 m ρ c
  have h1 : V13 m ρ c (Pipeline.arrRef spec6 1) = (a11 m c) := e13_arg11 m ρ c
  have h2 : V13 m ρ c (Pipeline.arrRef spec6 2) = val_main_v118 (F := Ideal) (a12 m c) := e13_v101 m ρ c
  refine h.trans ?_
  rw [RegionMatmul.arr6 (V13 m ρ) c, h0, h1, h2]; rfl

/-- THE RESULT: the last boundary's contents at the result buffer are the reference's last stage of the launch arguments. -/
theorem result : W14 m ρ c (Proc.devRef .tc main_v102) = val_main_v120 (F := Ideal) (a0 m c) (a1 m c) (a2 m c) (a3 m c) (a4 m c) (a5 m c) (a6 m c) (a7 m c) (a8 m c) (a9 m c) (a10 m c) (a11 m c) (a12 m c) := e14_v102 m ρ c

end Cert.KernelIdeal.Chain

end
-- ==== Proof.lean ====
/-
  The certificate of a three-layer graph convolution with a mean pool and a linear output layer. The kernel keeps the
  irregular work on the host — the masked neighbour sum of the input rows, the degree normalisation d^(-1/2), the three
  edge aggregations (gather at the sources, scale by the edge coefficient, segment-sum into the targets), the mean pool
  over graphs — and runs the dense work in seven regions tiled over 25 blocks of 2000 node rows: the three projections
  h·W, the three combines agg + (h·W)·d⁻¹ + b (the first two rectified), and pooled·Wl + bl. The reference is the same
  computation in plain jnp. On the extended reals the two agree with no algebra at all: a change of float format is the
  identity, a matmul into a zero accumulator is the dot_general's sum, a tiled elementwise pass is the whole-array
  pass, and the host operations of the two programs are the same operations on equal operands. So the kernel's result
  is, stage by stage, the reference's stage function of the launch arguments (Proof/KernelValue.lean), and the
  reference's run ends at that same function (its generated run and read-back modules).
  The ideal pass rewrote nothing, so the sanctioned-idealization claim is trivial; the three frames are the generated
  frame runs (the reference's with its result dropped).
-/
import proofs.«130858_j4011499454822_2_alg».proof.Defs
import proofs.«130858_j4011499454822_2_alg».proof.Proof.Gen.Kernel
import proofs.«130858_j4011499454822_2_alg».proof.Proof.Gen.Kernel.Frame
import proofs.«130858_j4011499454822_2_alg».proof.Proof.Gen.KernelIdeal
import proofs.«130858_j4011499454822_2_alg».proof.Proof.Gen.KernelIdeal.Frame
import proofs.«130858_j4011499454822_2_alg».proof.Proof.Gen.ReferenceIdeal
import proofs.«130858_j4011499454822_2_alg».proof.Proof.Gen.Pre_finite_inputs
import proofs.«130858_j4011499454822_2_alg».proof.Proof.Gen.ReferenceIdeal.Run
import proofs.«130858_j4011499454822_2_alg».proof.Proof.Gen.ReferenceIdeal.Read
import proofs.«130858_j4011499454822_2_alg».proof.Proof.KernelRun
import proofs.«130858_j4011499454822_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2) (Cert.ReferenceIdeal.Value.run (F := Ideal) m ρ)

/-- Both runs end with the result at the reference's last stage of the (agreeing) launch arguments. -/
theorem algebraic : Cert.algebraic_KernelIdeal_ReferenceIdeal := by
  intro m ρ m' ρ' _ hagree
  refine ⟨fun c => Cert.ReferenceIdeal.Read.val_main_v120 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Chain.result m ρ c), (h c).2⟩)
      (Cert.KernelIdeal.ResultRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v120_eq, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
